-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v112_0)) (v1 : (c : Dev Cert.KernelIdeal.nD) → Buf (Elt Ideal) ((c.tc : Thread Cert.KernelIdeal.nD Cert.KernelIdeal.τ).loc Cert.KernelIdeal.main_v112_1)) (v2 : (c : Dev Cert.KernelIdeal.nD) → Buf (Elt Ideal) ((c.tc : Thread Cert.KernelIdeal.nD Cert.KernelIdeal.τ).loc Cert.KernelIdeal.main_v112_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112_0) = v0 c
          ∧ r.2.mem ((c.tc : Thread Cert.KernelIdeal.nD Cert.KernelIdeal.τ).loc Cert.KernelIdeal.main_v112_1) = v1 c
          ∧ r.2.mem ((c.tc : Thread Cert.KernelIdeal.nD Cert.KernelIdeal.τ).loc Cert.KernelIdeal.main_v112_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5120 : Shape := ⟨1, ![5120]⟩
abbrev S2x10240 : Shape := ⟨2, ![2, 10240]⟩
abbrev S100000x128 : Shape := ⟨2, ![100000, 128]⟩
abbrev S384x128 : Shape := ⟨2, ![384, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_

variable [Facts]

def fn_part3 {F : FTy → Type} [FloatOps F] (main_arg14 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg14
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  main_v58

def fn_part2 {F : FTy → Type} [FloatOps F] (main_arg10 : FVec F S1 .f32) (main_arg11 : FVec F S128x256 .f32) (main_arg12 : FVec F S128x128 .f32) (main_arg13 : FVec F S128x128 .f32) (main_arg14 : FVec F S128x128 .f32) (main_v33 : IVec S_ 1) : IVec S_ 1 :=
  let main_v34 : FVec F S1 .f32 := Host.absf main_arg10
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x256 .f32 := Host.absf main_arg11
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128x128 .f32 := Host.absf main_arg12
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_v48 main_v49 main_v50

def fn_part1 {F : FTy → Type} [FloatOps F] (main_arg7 : FVec F S128x128 .f32) (main_arg8 : FVec F S128 .f32) (main_arg9 : FVec F S1x128 .f32) (main_arg10 : FVec F S1 .f32) (main_arg11 : FVec F S128x256 .f32) (main_arg12 : FVec F S128x128 .f32) (main_arg13 : FVec F S128x128 .f32) (main_arg14 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg7
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1x128 .f32 := Host.absf main_arg9
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : IVec S5120 32) (main_arg1 : IVec S2x10240 32) (main_arg2 : IVec S5120 32) (main_arg3 : FVec F S100000x128 .f32) (main_arg4 : FVec F S384x128 .f32) (main_arg5 : FVec F S384x128 .f32) (main_arg6 : FVec F S128x128 .f32) (main_arg7 : FVec F S128x128 .f32) (main_arg8 : FVec F S128 .f32) (main_arg9 : FVec F S1x128 .f32) (main_arg10 : FVec F S1 .f32) (main_arg11 : FVec F S128x256 .f32) (main_arg12 : FVec F S128x128 .f32) (main_arg13 : FVec F S128x128 .f32) (main_arg14 : FVec F S128x128 .f32) : IVec S_ 1 :=
  let main_v0 : FVec F S100000x128 .f32 := Host.absf main_arg3
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S384x128 .f32 := Host.absf main_arg4
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S384x128 .f32 := Host.absf main_arg5
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_arg12 main_arg13 main_arg14 main_v13 main_v16
-- ==== Kernel.lean ====
abbrev S5120 : Shape := ⟨1, ![5120]⟩
abbrev S2x10240 : Shape := ⟨2, ![2, 10240]⟩
abbrev S100000x128 : Shape := ⟨2, ![100000, 128]⟩
abbrev S384x128 : Shape := ⟨2, ![384, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S128x256 : Shape := ⟨2, ![128, 256]⟩
abbrev S_ : Shape := ⟨0, ![]⟩
abbrev S5120x1 : Shape := ⟨2, ![5120, 1]⟩
abbrev S5120x128 : Shape := ⟨2, ![5120, 128]⟩
abbrev S1x10240 : Shape := ⟨2, ![1, 10240]⟩
abbrev S10240 : Shape := ⟨1, ![10240]⟩
abbrev S10240x1 : Shape := ⟨2, ![10240, 1]⟩
abbrev S10240x128 : Shape := ⟨2, ![10240, 128]⟩
abbrev S128x384 : Shape := ⟨2, ![128, 384]⟩
abbrev S5120x384 : Shape := ⟨2, ![5120, 384]⟩
abbrev S256 : Shape := ⟨1, ![256]⟩
abbrev S256x1 : Shape := ⟨2, ![256, 1]⟩
abbrev S256x128 : Shape := ⟨2, ![256, 128]⟩
abbrev S128x1 : Shape := ⟨2, ![128, 1]⟩
abbrev S1x1 : Shape := ⟨2, ![1, 1]⟩
abbrev S256x256 : Shape := ⟨2, ![256, 256]⟩
abbrev S768x128 : Shape := ⟨2, ![768, 128]⟩
abbrev S256x100000 : Shape := ⟨2, ![256, 100000]⟩
abbrev S3456x128 : Shape := ⟨2, ![3456, 128]⟩
abbrev S256x3456 : Shape := ⟨2, ![256, 3456]⟩

abbrev nBuf : Space → Nat
  | .hbm => 150
  | .vmem => 9
  | .smem => 0
  | _ => 0

abbrev hbmTy0_0 (i : Nat) : BufTy := match i % 128 with
  | 0 => ⟨S5120, .i32⟩
  | 1 => ⟨S2x10240, .i32⟩
  | 2 => ⟨S5120, .i32⟩
  | 3 => ⟨S100000x128, .f32⟩
  | 4 => ⟨S384x128, .f32⟩
  | 5 => ⟨S384x128, .f32⟩
  | 6 => ⟨S128x128, .f32⟩
  | 7 => ⟨S128x128, .f32⟩
  | 8 => ⟨S128, .f32⟩
  | 9 => ⟨S1x128, .f32⟩
  | 10 => ⟨S1, .f32⟩
  | 11 => ⟨S128x256, .f32⟩
  | 12 => ⟨S128x128, .f32⟩
  | 13 => ⟨S128x128, .f32⟩
  | 14 => ⟨S128x128, .f32⟩
  | 15 => ⟨S_, .i32⟩
  | 16 => ⟨S5120, .i32⟩
  | 17 => ⟨S5120, .i1⟩
  | 18 => ⟨S_, .i32⟩
  | 19 => ⟨S5120, .i32⟩
  | 20 => ⟨S5120, .i32⟩
  | 21 => ⟨S5120, .i32⟩
  | 22 => ⟨S5120x1, .i32⟩
  | 23 => ⟨S5120x128, .f32⟩
  | 24 => ⟨S1x10240, .i32⟩
  | 25 => ⟨S10240, .i32⟩
  | 26 => ⟨S1x10240, .i32⟩
  | 27 => ⟨S10240, .i32⟩
  | 28 => ⟨S_, .i32⟩
  | 29 => ⟨S10240, .i32⟩
  | 30 => ⟨S10240, .i1⟩
  | 31 => ⟨S_, .i32⟩
  | 32 => ⟨S10240, .i32⟩
  | 33 => ⟨S10240, .i32⟩
  | 34 => ⟨S10240, .i32⟩
  | 35 => ⟨S10240x1, .i32⟩
  | 36 => ⟨S10240x128, .f32⟩
  | 37 => ⟨S_, .f32⟩
  | 38 => ⟨S5120x128, .f32⟩
  | 39 => ⟨S10240x1, .i32⟩
  | 40 => ⟨S5120x128, .f32⟩
  | 41 => ⟨S128x384, .f32⟩
  | 42 => ⟨S5120x384, .f32⟩
  | 43 => ⟨S128x384, .f32⟩
  | 44 => ⟨S5120x384, .f32⟩
  | 45 => ⟨S5120x128, .f32⟩
  | 46 => ⟨S5120x128, .f32⟩
  | 47 => ⟨S5120x128, .f32⟩
  | 48 => ⟨S5120x128, .f32⟩
  | 49 => ⟨S5120x128, .f32⟩
  | 50 => ⟨S5120x128, .f32⟩
  | 51 => ⟨S5120x128, .f32⟩
  | 52 => ⟨S5120x128, .f32⟩
  | 53 => ⟨S5120x128, .f32⟩
  | 54 => ⟨S_, .f32⟩
  | 55 => ⟨S5120x128, .f32⟩
  | 56 => ⟨S5120x128, .f32⟩
  | 57 => ⟨S_, .f32⟩
  | 58 => ⟨S5120x128, .f32⟩
  | 59 => ⟨S5120x128, .f32⟩
  | 60 => ⟨S5120x128, .f32⟩
  | 61 => ⟨S5120x128, .f32⟩
  | 62 => ⟨S5120x128, .f32⟩
  | 63 => ⟨S_, .f32⟩
  | 64 => ⟨S5120x128, .f32⟩
  | 65 => ⟨S5120x128, .f32⟩
  | 66 => ⟨S_, .f32⟩
  | 67 => ⟨S5120x128, .f32⟩
  | 68 => ⟨S5120x128, .f32⟩
  | 69 => ⟨S5120x128, .f32⟩
  | 70 => ⟨S5120x128, .f32⟩
  | 71 => ⟨S5120x128, .f32⟩
  | 72 => ⟨S_, .f32⟩
  | 73 => ⟨S5120x128, .f32⟩
  | 74 => ⟨S5120x128, .f32⟩
  | 75 => ⟨S5120x128, .f32⟩
  | 76 => ⟨S5120x128, .f32⟩
  | 77 => ⟨S5120x128, .f32⟩
  | 78 => ⟨S5120, .i32⟩
  | 79 => ⟨S_, .i32⟩
  | 80 => ⟨S256, .i32⟩
  | 81 => ⟨S5120x1, .i32⟩
  | 82 => ⟨S256, .i32⟩
  | 83 => ⟨S_, .i32⟩
  | 84 => ⟨S256, .i32⟩
  | 85 => ⟨S256, .i1⟩
  | 86 => ⟨S_, .i32⟩
  | 87 => ⟨S256, .i32⟩
  | 88 => ⟨S256, .i32⟩
  | 89 => ⟨S256, .i32⟩
  | 90 => ⟨S256x1, .i32⟩
  | 91 => ⟨S256x128, .f32⟩
  | 92 => ⟨S_, .i32⟩
  | 93 => ⟨S5120, .i32⟩
  | 94 => ⟨S5120, .i1⟩
  | 95 => ⟨S_, .i32⟩
  | 96 => ⟨S5120, .i32⟩
  | 97 => ⟨S5120, .i32⟩
  | 98 => ⟨S5120, .i32⟩
  | 99 => ⟨S5120x1, .i32⟩
  | 100 => ⟨S5120x128, .f32⟩
  | 101 => ⟨S128x128, .f32⟩
  | 102 => ⟨S5120x128, .f32⟩
  | 103 => ⟨S128x128, .f32⟩
  | 104 => ⟨S5120x128, .f32⟩
  | 105 => ⟨S1x128, .f32⟩
  | 106 => ⟨S5120x128, .f32⟩
  | 107 => ⟨S5120x128, .f32⟩
  | 108 => ⟨S5120x128, .f32⟩
  | 109 => ⟨S5120x128, .f32⟩
  | 110 => ⟨S5120x128, .f32⟩
  | 111 => ⟨S_, .f32⟩
  | 112 => ⟨S5120x128, .f32⟩
  | 113 => ⟨S5120x128, .f32⟩
  | 114 => ⟨S_, .f32⟩
  | 115 => ⟨S5120x128, .f32⟩
  | 116 => ⟨S5120x128, .f32⟩
  | 117 => ⟨S128x1, .f32⟩
  | 118 => ⟨S5120x1, .f32⟩
  | 119 => ⟨S1x1, .f32⟩
  | 120 => ⟨S5120x1, .f32⟩
  | 121 => ⟨S5120x1, .f32⟩
  | 122 => ⟨S5120x128, .f32⟩
  | 123 => ⟨S5120x128, .f32⟩
  | 124 => ⟨S_, .f32⟩
  | 125 => ⟨S256x128, .f32⟩
  | 126 => ⟨S5120x1, .i32⟩
  | 127 => ⟨S256x128, .f32⟩
  | _ => ⟨S5120, .i32⟩

abbrev hbmTy0_1 (i : Nat) : BufTy := match i % 128 with
  | 0 => ⟨S256x256, .f32⟩
  | 1 => ⟨S256x128, .f32⟩
  | 2 => ⟨S256x128, .f32⟩
  | 3 => ⟨S256x128, .f32⟩
  | 4 => ⟨S256x128, .f32⟩
  | 5 => ⟨S_, .f32⟩
  | 6 => ⟨S256x128, .f32⟩
  | 7 => ⟨S256x128, .f32⟩
  | 8 => ⟨S_, .f32⟩
  | 9 => ⟨S256x128, .f32⟩
  | 10 => ⟨S256x128, .f32⟩
  | 11 => ⟨S128x128, .f32⟩
  | 12 => ⟨S256x128, .f32⟩
  | 13 => ⟨S128x128, .f32⟩
  | 14 => ⟨S256x128, .f32⟩
  | 15 => ⟨S128x128, .f32⟩
  | 16 => ⟨S256x128, .f32⟩
  | 17 => ⟨S768x128, .f32⟩
  | 18 => ⟨S768x128, .bf16⟩
  | 19 => ⟨S256x100000, .f32⟩
  | 20 => ⟨S256x100000, .f32⟩
  | 21 => ⟨S256x100000, .f32⟩
  | _ => ⟨S5120, .i32⟩

abbrev hbmTy (i : Nat) : BufTy := match i / 128 with
  | 0 => hbmTy0_0 i
  | 1 => hbmTy0_1 i
  | _ => ⟨S5120, .i32⟩

abbrev bufTy : (tb : Table) → Fin (tcTables nBuf tb) → BufTy
  | .hbm, ⟨i, _⟩ => hbmTy i
  | .local _ .vmem, ⟨0, _⟩ => ⟨S768x128, .bf16⟩
  | .local _ .vmem, ⟨1, _⟩ => ⟨S3456x128, .f32⟩
  | .local _ .vmem, ⟨2, _⟩ => ⟨S3456x128, .f32⟩
  | .local _ .vmem, ⟨3, _⟩ => ⟨S256x3456, .f32⟩
  | .local _ .vmem, ⟨4, _⟩ => ⟨S256x3456, .f32⟩
  | .local _ .vmem, ⟨5, _⟩ => ⟨S256x3456, .f32⟩
  | .local _ .vmem, ⟨6, _⟩ => ⟨S256x3456, .f32⟩
  | .local _ .vmem, ⟨7, _⟩ => ⟨S256x3456, .f32⟩
  | .local _ .vmem, ⟨8, _⟩ => ⟨S256x3456, .f32⟩
  | _, _ => ⟨S5120, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_9 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_11 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_15 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_16 : Ref sig .tc := ⟨.hbm, 133, rfl⟩
abbrev main_v100 : Ref sig .tc := ⟨.hbm, 134, rfl⟩
abbrev main_v101 : Ref sig .tc := ⟨.hbm, 135, rfl⟩
abbrev main_cst_17 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112_0 : Ref sig .tc := ⟨.hbm, 147, rfl⟩
abbrev main_v112_1 : Ref sig .tc := ⟨.hbm, 148, rfl⟩
abbrev main_v112_2 : Ref sig .tc := ⟨.hbm, 149, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S768x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3456x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3456 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3456 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3456 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S5120 : S_.BroadcastsInDim S5120 (![] : Fin 0 → Fin S5120.rank)
  bcast_S5120_S5120x1_0 : S5120.BroadcastsInDim S5120x1 (![0] : Fin 1 → Fin S5120x1.rank)
  slices_S2x10240_S1x10240_0_0 : S2x10240.Slices ![0, 0] S1x10240
  shapeCasts_S1x10240_S10240 : S1x10240.ShapeCasts S10240
  slices_S2x10240_S1x10240_1_0 : S2x10240.Slices ![1, 0] S1x10240
  bcast_S_S10240 : S_.BroadcastsInDim S10240 (![] : Fin 0 → Fin S10240.rank)
  bcast_S10240_S10240x1_0 : S10240.BroadcastsInDim S10240x1 (![0] : Fin 1 → Fin S10240x1.rank)
  bcast_S_S5120x128 : S_.BroadcastsInDim S5120x128 (![] : Fin 0 → Fin S5120x128.rank)
  transposes_S384x128_S128x384_1_0 : S384x128.Transposes [1, 0] S128x384
  slices_S5120x384_S5120x128_0_0 : S5120x384.Slices ![0, 0] S5120x128
  slices_S5120x384_S5120x128_0_128 : S5120x384.Slices ![0, 128] S5120x128
  slices_S5120x384_S5120x128_0_256 : S5120x384.Slices ![0, 256] S5120x128
  bcast_S_S256 : S_.BroadcastsInDim S256 (![] : Fin 0 → Fin S256.rank)
  bcast_S256_S256x1_0 : S256.BroadcastsInDim S256x1 (![0] : Fin 1 → Fin S256x1.rank)
  transposes_S128x128_S128x128_1_0 : S128x128.Transposes [1, 0] S128x128
  bcast_S128_S1x128_1 : S128.BroadcastsInDim S1x128 (![1] : Fin 1 → Fin S1x128.rank)
  bcast_S1x128_S5120x128_0_1 : S1x128.BroadcastsInDim S5120x128 (![0, 1] : Fin 2 → Fin S5120x128.rank)
  transposes_S1x128_S128x1_1_0 : S1x128.Transposes [1, 0] S128x1
  bcast_S1_S1x1_1 : S1.BroadcastsInDim S1x1 (![1] : Fin 1 → Fin S1x1.rank)
  bcast_S1x1_S5120x1_0_1 : S1x1.BroadcastsInDim S5120x1 (![0, 1] : Fin 2 → Fin S5120x1.rank)
  bcast_S5120x1_S5120x128_0_1 : S5120x1.BroadcastsInDim S5120x128 (![0, 1] : Fin 2 → Fin S5120x128.rank)
  bcast_S_S256x128 : S_.BroadcastsInDim S256x128 (![] : Fin 0 → Fin S256x128.rank)
  concatenates_S256x128_S256x128_S256x256_d1 : Shape.Concatenates [S256x128, S256x128] S256x256 1
  transposes_S128x256_S256x128_1_0 : S128x256.Transposes [1, 0] S256x128
  concatenates_S256x128_S256x128_S256x128_S768x128_d0 : Shape.Concatenates [S256x128, S256x128, S256x128] S768x128 0
  bitsLt_bf16_f32 : FTy.bits .bf16 < FTy.bits .f32
  inb_S3456x128_S3456x128_0_0 : ∀ a, (![0, 0] : Fin 2 → Nat) a + S3456x128.size a ≤ S3456x128.size a
  h_S3456x128 : 0 < S3456x128.numel
  inb_S768x128_S768x128_0_0 : ∀ a, (![0, 0] : Fin 2 → Nat) a + S768x128.size a ≤ S768x128.size a
  h_S768x128 : 0 < S768x128.numel
  shapeCasts_S768x128_S768x128 : S768x128.ShapeCasts S768x128
  slices_S768x128_o0_0_S256x128 : S768x128.Slices ![0, 0] S256x128
  slices_S768x128_o256_0_S256x128 : S768x128.Slices ![256, 0] S256x128
  slices_S768x128_o512_0_S256x128 : S768x128.Slices ![512, 0] S256x128
  inb_S256x3456_S256x3456_0_0 : ∀ a, (![0, 0] : Fin 2 → Nat) a + S256x3456.size a ≤ S256x3456.size a
  h_S256x3456 : 0 < S256x3456.numel
  gather_S100000x128_S5120x1_S5120x128_1_0_n_n_0_1_1128_wf : GatherDims.WF S100000x128 S5120x1 S5120x128 [1] [0] [] [0] [] 1 ![1, 128]
  gather_S5120x128_S10240x1_S10240x128_1_0_n_n_0_1_1128_wf : GatherDims.WF S5120x128 S10240x1 S10240x128 [1] [0] [] [0] [] 1 ![1, 128]
  scatter_S5120x128_S10240x1_S10240x128_1_0_0_1_wf : ScatterDims.WF S5120x128 S10240x1 S10240x128 [1] [0] [0] 1
  dot_S5120x128_S128x384_S5120x384_1_0_0_1_n_n_wf : DotDims.WF S5120x128 S128x384 S5120x384 [1] [0] [0] [1] [] []
  scatter_S256_S5120x1_S5120_n_0_0_1_wf : ScatterDims.WF S256 S5120x1 S5120 [] [0] [0] 1
  gather_S5120x128_S256x1_S256x128_1_0_n_n_0_1_1128_wf : GatherDims.WF S5120x128 S256x1 S256x128 [1] [0] [] [0] [] 1 ![1, 128]
  gather_S256x128_S5120x1_S5120x128_1_0_n_n_0_1_1128_wf : GatherDims.WF S256x128 S5120x1 S5120x128 [1] [0] [] [0] [] 1 ![1, 128]
  dot_S5120x128_S128x128_S5120x128_1_0_0_1_n_n_wf : DotDims.WF S5120x128 S128x128 S5120x128 [1] [0] [0] [1] [] []
  dot_S5120x128_S128x1_S5120x1_1_0_0_1_n_n_wf : DotDims.WF S5120x128 S128x1 S5120x1 [1] [0] [0] [1] [] []
  scatter_S256x128_S5120x1_S5120x128_1_0_0_1_wf : ScatterDims.WF S256x128 S5120x1 S5120x128 [1] [0] [0] 1
  dot_S256x256_S256x128_S256x128_1_0_0_1_n_n_wf : DotDims.WF S256x256 S256x128 S256x128 [1] [0] [0] [1] [] []
  dot_S256x128_S128x128_S256x128_1_0_0_1_n_n_wf : DotDims.WF S256x128 S128x128 S256x128 [1] [0] [0] [1] [] []
  dot_S256x128_S3456x128_S256x3456_1_1_0_0_n_n_wf : DotDims.WF S256x128 S3456x128 S256x3456 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S768x128.size a ≤ S768x128.size a
  hwx0_0 : ∀ i : grid0.Coords, EltTy.bits .bf16 = 32 ∨ (Rect.block (s := S768x128) S768x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3456x128.size a < S100000x128.size a
  hwx0_1 : ∀ i : grid0.Coords, EltTy.bits .f32 = 32 ∨ (Rect.unit (s := S100000x128) (fun a => cc0_transform_1 i a * S3456x128.size a) (fun a => (Pipeline.Clip.of (cc0_transform_1 i a) (S3456x128.size a) (S100000x128.size a)).extent (S3456x128.size a)) fun a => Pipeline.Clip.inb (Pipeline.Clip.ok_of (hstart0_1 i a))).WholeWords (EltTy.packing .f32)
  hwxs0_1 : ∀ i : grid0.Coords, EltTy.bits .f32 = 32 ∨ (Rect.unit (s := S3456x128) (fun _ => 0) (fun a => (Pipeline.Clip.of (cc0_transform_1 i a) (S3456x128.size a) (S100000x128.size a)).extent (S3456x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x3456.size a < S256x100000.size a
  hwx0_2 : ∀ i : grid0.Coords, EltTy.bits .f32 = 32 ∨ (Rect.unit (s := S256x100000) (fun a => cc0_transform_2 i a * S256x3456.size a) (fun a => (Pipeline.Clip.of (cc0_transform_2 i a) (S256x3456.size a) (S256x100000.size a)).extent (S256x3456.size a)) fun a => Pipeline.Clip.inb (Pipeline.Clip.ok_of (hstart0_2 i a))).WholeWords (EltTy.packing .f32)
  hwxs0_2 : ∀ i : grid0.Coords, EltTy.bits .f32 = 32 ∨ (Rect.unit (s := S256x3456) (fun _ => 0) (fun a => (Pipeline.Clip.of (cc0_transform_2 i a) (S256x3456.size a) (S256x100000.size a)).extent (S256x3456.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S256x3456.size a < S256x100000.size a
  hwx0_3 : ∀ i : grid0.Coords, EltTy.bits .f32 = 32 ∨ (Rect.unit (s := S256x100000) (fun a => cc0_transform_3 i a * S256x3456.size a) (fun a => (Pipeline.Clip.of (cc0_transform_3 i a) (S256x3456.size a) (S256x100000.size a)).extent (S256x3456.size a)) fun a => Pipeline.Clip.inb (Pipeline.Clip.ok_of (hstart0_3 i a))).WholeWords (EltTy.packing .f32)
  hwxs0_3 : ∀ i : grid0.Coords, EltTy.bits .f32 = 32 ∨ (Rect.unit (s := S256x3456) (fun _ => 0) (fun a => (Pipeline.Clip.of (cc0_transform_3 i a) (S256x3456.size a) (S256x100000.size a)).extent (S256x3456.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S256x3456.size a < S256x100000.size a
  hwx0_4 : ∀ i : grid0.Coords, EltTy.bits .f32 = 32 ∨ (Rect.unit (s := S256x100000) (fun a => cc0_transform_4 i a * S256x3456.size a) (fun a => (Pipeline.Clip.of (cc0_transform_4 i a) (S256x3456.size a) (S256x100000.size a)).extent (S256x3456.size a)) fun a => Pipeline.Clip.inb (Pipeline.Clip.ok_of (hstart0_4 i a))).WholeWords (EltTy.packing .f32)
  hwxs0_4 : ∀ i : grid0.Coords, EltTy.bits .f32 = 32 ∨ (Rect.unit (s := S256x3456) (fun _ => 0) (fun a => (Pipeline.Clip.of (cc0_transform_4 i a) (S256x3456.size a) (S256x100000.size a)).extent (S256x3456.size a)) fun a => (Nat.zero_add _).trans_le (Pipeline.Clip.extent_le (Pipeline.Clip.ok_of (hstart0_4 i a)))).WholeWords (EltTy.packing .f32)

variable [Facts₀]

def gather_S100000x128_S5120x1_S5120x128_1_0_n_n_0_1_1128 : GatherDims S100000x128 S5120x1 S5120x128 where
  offsetDims := [1]
  collapsedSliceDims := [0]
  operandBatchingDims := []
  startIndicesBatchingDims := []
  startIndexMap := [0]
  indexVectorDim := 1
  sliceSizes := ![1, 128]
  wf := gather_S100000x128_S5120x1_S5120x128_1_0_n_n_0_1_1128_wf
def gather_S5120x128_S10240x1_S10240x128_1_0_n_n_0_1_1128 : GatherDims S5120x128 S10240x1 S10240x128 where
  offsetDims := [1]
  collapsedSliceDims := [0]
  operandBatchingDims := []
  startIndicesBatchingDims := []
  startIndexMap := [0]
  indexVectorDim := 1
  sliceSizes := ![1, 128]
  wf := gather_S5120x128_S10240x1_S10240x128_1_0_n_n_0_1_1128_wf
def scatter_S5120x128_S10240x1_S10240x128_1_0_0_1 : ScatterDims S5120x128 S10240x1 S10240x128 where
  updateWindowDims := [1]
  insertedWindowDims := [0]
  scatterDimsToOperandDims := [0]
  indexVectorDim := 1
  wf := scatter_S5120x128_S10240x1_S10240x128_1_0_0_1_wf
def dot_S5120x128_S128x384_S5120x384_1_0_0_1_n_n : DotDims S5120x128 S128x384 S5120x384 where
  lhsContracting := [1]
  rhsContracting := [0]
  lhsNonContracting := [0]
  rhsNonContracting := [1]
  lhsBatch := []
  rhsBatch := []
  wf := dot_S5120x128_S128x384_S5120x384_1_0_0_1_n_n_wf
def scatter_S256_S5120x1_S5120_n_0_0_1 : ScatterDims S256 S5120x1 S5120 where
  updateWindowDims := []
  insertedWindowDims := [0]
  scatterDimsToOperandDims := [0]
  indexVectorDim := 1
  wf := scatter_S256_S5120x1_S5120_n_0_0_1_wf
def gather_S5120x128_S256x1_S256x128_1_0_n_n_0_1_1128 : GatherDims S5120x128 S256x1 S256x128 where
  offsetDims := [1]
  collapsedSliceDims := [0]
  operandBatchingDims := []
  startIndicesBatchingDims := []
  startIndexMap := [0]
  indexVectorDim := 1
  sliceSizes := ![1, 128]
  wf := gather_S5120x128_S256x1_S256x128_1_0_n_n_0_1_1128_wf
def gather_S256x128_S5120x1_S5120x128_1_0_n_n_0_1_1128 : GatherDims S256x128 S5120x1 S5120x128 where
  offsetDims := [1]
  collapsedSliceDims := [0]
  operandBatchingDims := []
  startIndicesBatchingDims := []
  startIndexMap := [0]
  indexVectorDim := 1
  sliceSizes := ![1, 128]
  wf := gather_S256x128_S5120x1_S5120x128_1_0_n_n_0_1_1128_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S5120x128_S128x1_S5120x1_1_0_0_1_n_n : DotDims S5120x128 S128x1 S5120x1 where
  lhsContracting := [1]
  rhsContracting := [0]
  lhsNonContracting := [0]
  rhsNonContracting := [1]
  lhsBatch := []
  rhsBatch := []
  wf := dot_S5120x128_S128x1_S5120x1_1_0_0_1_n_n_wf
def scatter_S256x128_S5120x1_S5120x128_1_0_0_1 : ScatterDims S256x128 S5120x1 S5120x128 where
  updateWindowDims := [1]
  insertedWindowDims := [0]
  scatterDimsToOperandDims := [0]
  indexVectorDim := 1
  wf := scatter_S256x128_S5120x1_S5120x128_1_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S3456x128_S256x3456_1_1_0_0_n_n : DotDims S256x128 S3456x128 S256x3456 where
  lhsContracting := [1]
  rhsContracting := [1]
  lhsNonContracting := [0]
  rhsNonContracting := [0]
  lhsBatch := []
  rhsBatch := []
  wf := dot_S256x128_S3456x128_S256x3456_1_1_0_0_n_n_wf

abbrev win0_0 : Pipeline.Window sig grid0 :=
  Pipeline.Window.ofSpec (Memref.whole main_v111) S768x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg3) S3456x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v112_0) S256x3456.size cc0_transform_2 reads0_2 true false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v112_1) S256x3456.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v112_2) S256x3456.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S5120 : Shape := ⟨1, ![5120]⟩
abbrev S2x10240 : Shape := ⟨2, ![2, 10240]⟩
abbrev S100000x128 : Shape := ⟨2, ![100000, 128]⟩
abbrev S384x128 : Shape := ⟨2, ![384, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S128x256 : Shape := ⟨2, ![128, 256]⟩
abbrev S_ : Shape := ⟨0, ![]⟩
abbrev S5120x1 : Shape := ⟨2, ![5120, 1]⟩
abbrev S5120x128 : Shape := ⟨2, ![5120, 128]⟩
abbrev S1x10240 : Shape := ⟨2, ![1, 10240]⟩
abbrev S10240 : Shape := ⟨1, ![10240]⟩
abbrev S10240x1 : Shape := ⟨2, ![10240, 1]⟩
abbrev S10240x128 : Shape := ⟨2, ![10240, 128]⟩
abbrev S128x384 : Shape := ⟨2, ![128, 384]⟩
abbrev S5120x384 : Shape := ⟨2, ![5120, 384]⟩
abbrev S256 : Shape := ⟨1, ![256]⟩
abbrev S256x1 : Shape := ⟨2, ![256, 1]⟩
abbrev S256x128 : Shape := ⟨2, ![256, 128]⟩
abbrev S128x1 : Shape := ⟨2, ![128, 1]⟩
abbrev S1x1 : Shape := ⟨2, ![1, 1]⟩
abbrev S256x256 : Shape := ⟨2, ![256, 256]⟩
abbrev S128x100000 : Shape := ⟨2, ![128, 100000]⟩
abbrev S256x100000 : Shape := ⟨2, ![256, 100000]⟩

abbrev nBuf : Space → Nat
  | .hbm => 151
  | .vmem => 0
  | .smem => 0
  | _ => 0

abbrev hbmTy0_0 (i : Nat) : BufTy := match i % 128 with
  | 0 => ⟨S5120, .i32⟩
  | 1 => ⟨S2x10240, .i32⟩
  | 2 => ⟨S5120, .i32⟩
  | 3 => ⟨S100000x128, .f32⟩
  | 4 => ⟨S384x128, .f32⟩
  | 5 => ⟨S384x128, .f32⟩
  | 6 => ⟨S128x128, .f32⟩
  | 7 => ⟨S128x128, .f32⟩
  | 8 => ⟨S128, .f32⟩
  | 9 => ⟨S1x128, .f32⟩
  | 10 => ⟨S1, .f32⟩
  | 11 => ⟨S128x256, .f32⟩
  | 12 => ⟨S128x128, .f32⟩
  | 13 => ⟨S128x128, .f32⟩
  | 14 => ⟨S128x128, .f32⟩
  | 15 => ⟨S_, .i32⟩
  | 16 => ⟨S5120, .i32⟩
  | 17 => ⟨S5120, .i1⟩
  | 18 => ⟨S_, .i32⟩
  | 19 => ⟨S5120, .i32⟩
  | 20 => ⟨S5120, .i32⟩
  | 21 => ⟨S5120, .i32⟩
  | 22 => ⟨S5120x1, .i32⟩
  | 23 => ⟨S5120x128, .f32⟩
  | 24 => ⟨S1x10240, .i32⟩
  | 25 => ⟨S10240, .i32⟩
  | 26 => ⟨S1x10240, .i32⟩
  | 27 => ⟨S10240, .i32⟩
  | 28 => ⟨S_, .i32⟩
  | 29 => ⟨S10240, .i32⟩
  | 30 => ⟨S10240, .i1⟩
  | 31 => ⟨S_, .i32⟩
  | 32 => ⟨S10240, .i32⟩
  | 33 => ⟨S10240, .i32⟩
  | 34 => ⟨S10240, .i32⟩
  | 35 => ⟨S10240x1, .i32⟩
  | 36 => ⟨S10240x128, .f32⟩
  | 37 => ⟨S_, .f32⟩
  | 38 => ⟨S5120x128, .f32⟩
  | 39 => ⟨S10240x1, .i32⟩
  | 40 => ⟨S5120x128, .f32⟩
  | 41 => ⟨S128x384, .f32⟩
  | 42 => ⟨S5120x384, .f32⟩
  | 43 => ⟨S128x384, .f32⟩
  | 44 => ⟨S5120x384, .f32⟩
  | 45 => ⟨S5120x128, .f32⟩
  | 46 => ⟨S5120x128, .f32⟩
  | 47 => ⟨S5120x128, .f32⟩
  | 48 => ⟨S5120x128, .f32⟩
  | 49 => ⟨S5120x128, .f32⟩
  | 50 => ⟨S5120x128, .f32⟩
  | 51 => ⟨S5120x128, .f32⟩
  | 52 => ⟨S5120x128, .f32⟩
  | 53 => ⟨S5120x128, .f32⟩
  | 54 => ⟨S_, .f32⟩
  | 55 => ⟨S5120x128, .f32⟩
  | 56 => ⟨S5120x128, .f32⟩
  | 57 => ⟨S_, .f32⟩
  | 58 => ⟨S5120x128, .f32⟩
  | 59 => ⟨S5120x128, .f32⟩
  | 60 => ⟨S5120x128, .f32⟩
  | 61 => ⟨S5120x128, .f32⟩
  | 62 => ⟨S5120x128, .f32⟩
  | 63 => ⟨S_, .f32⟩
  | 64 => ⟨S5120x128, .f32⟩
  | 65 => ⟨S5120x128, .f32⟩
  | 66 => ⟨S_, .f32⟩
  | 67 => ⟨S5120x128, .f32⟩
  | 68 => ⟨S5120x128, .f32⟩
  | 69 => ⟨S5120x128, .f32⟩
  | 70 => ⟨S5120x128, .f32⟩
  | 71 => ⟨S5120x128, .f32⟩
  | 72 => ⟨S_, .f32⟩
  | 73 => ⟨S5120x128, .f32⟩
  | 74 => ⟨S5120x128, .f32⟩
  | 75 => ⟨S5120x128, .f32⟩
  | 76 => ⟨S5120x128, .f32⟩
  | 77 => ⟨S5120x128, .f32⟩
  | 78 => ⟨S5120, .i32⟩
  | 79 => ⟨S_, .i32⟩
  | 80 => ⟨S256, .i32⟩
  | 81 => ⟨S5120x1, .i32⟩
  | 82 => ⟨S256, .i32⟩
  | 83 => ⟨S_, .i32⟩
  | 84 => ⟨S256, .i32⟩
  | 85 => ⟨S256, .i1⟩
  | 86 => ⟨S_, .i32⟩
  | 87 => ⟨S256, .i32⟩
  | 88 => ⟨S256, .i32⟩
  | 89 => ⟨S256, .i32⟩
  | 90 => ⟨S256x1, .i32⟩
  | 91 => ⟨S256x128, .f32⟩
  | 92 => ⟨S_, .i32⟩
  | 93 => ⟨S5120, .i32⟩
  | 94 => ⟨S5120, .i1⟩
  | 95 => ⟨S_, .i32⟩
  | 96 => ⟨S5120, .i32⟩
  | 97 => ⟨S5120, .i32⟩
  | 98 => ⟨S5120, .i32⟩
  | 99 => ⟨S5120x1, .i32⟩
  | 100 => ⟨S5120x128, .f32⟩
  | 101 => ⟨S128x128, .f32⟩
  | 102 => ⟨S5120x128, .f32⟩
  | 103 => ⟨S128x128, .f32⟩
  | 104 => ⟨S5120x128, .f32⟩
  | 105 => ⟨S1x128, .f32⟩
  | 106 => ⟨S5120x128, .f32⟩
  | 107 => ⟨S5120x128, .f32⟩
  | 108 => ⟨S5120x128, .f32⟩
  | 109 => ⟨S5120x128, .f32⟩
  | 110 => ⟨S5120x128, .f32⟩
  | 111 => ⟨S_, .f32⟩
  | 112 => ⟨S5120x128, .f32⟩
  | 113 => ⟨S5120x128, .f32⟩
  | 114 => ⟨S_, .f32⟩
  | 115 => ⟨S5120x128, .f32⟩
  | 116 => ⟨S5120x128, .f32⟩
  | 117 => ⟨S128x1, .f32⟩
  | 118 => ⟨S5120x1, .f32⟩
  | 119 => ⟨S1x1, .f32⟩
  | 120 => ⟨S5120x1, .f32⟩
  | 121 => ⟨S5120x1, .f32⟩
  | 122 => ⟨S5120x128, .f32⟩
  | 123 => ⟨S5120x128, .f32⟩
  | 124 => ⟨S_, .f32⟩
  | 125 => ⟨S256x128, .f32⟩
  | 126 => ⟨S5120x1, .i32⟩
  | 127 => ⟨S256x128, .f32⟩
  | _ => ⟨S5120, .i32⟩

abbrev hbmTy0_1 (i : Nat) : BufTy := match i % 128 with
  | 0 => ⟨S256x256, .f32⟩
  | 1 => ⟨S256x128, .f32⟩
  | 2 => ⟨S256x128, .f32⟩
  | 3 => ⟨S256x128, .f32⟩
  | 4 => ⟨S256x128, .f32⟩
  | 5 => ⟨S_, .f32⟩
  | 6 => ⟨S256x128, .f32⟩
  | 7 => ⟨S256x128, .f32⟩
  | 8 => ⟨S_, .f32⟩
  | 9 => ⟨S256x128, .f32⟩
  | 10 => ⟨S256x128, .f32⟩
  | 11 => ⟨S128x128, .f32⟩
  | 12 => ⟨S256x128, .f32⟩
  | 13 => ⟨S128x100000, .f32⟩
  | 14 => ⟨S256x100000, .f32⟩
  | 15 => ⟨S128x128, .f32⟩
  | 16 => ⟨S256x128, .f32⟩
  | 17 => ⟨S128x100000, .f32⟩
  | 18 => ⟨S256x100000, .f32⟩
  | 19 => ⟨S128x128, .f32⟩
  | 20 => ⟨S256x128, .f32⟩
  | 21 => ⟨S128x100000, .f32⟩
  | 22 => ⟨S256x100000, .f32⟩
  | _ => ⟨S5120, .i32⟩

abbrev hbmTy (i : Nat) : BufTy := match i / 128 with
  | 0 => hbmTy0_0 i
  | 1 => hbmTy0_1 i
  | _ => ⟨S5120, .i32⟩

abbrev bufTy : (tb : Table) → Fin (tcTables nBuf tb) → BufTy
  | .hbm, ⟨i, _⟩ => hbmTy i
  | _, _ => ⟨S5120, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_cst_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_cst_6 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_7 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_9 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_11 : Ref sig .tc := ⟨.hbm, 92, rfl⟩
abbrev main_v64 : Ref sig .tc := ⟨.hbm, 93, rfl⟩
abbrev main_v65 : Ref sig .tc := ⟨.hbm, 94, rfl⟩
abbrev main_c_12 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_15 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_16 : Ref sig .tc := ⟨.hbm, 133, rfl⟩
abbrev main_v100 : Ref sig .tc := ⟨.hbm, 134, rfl⟩
abbrev main_v101 : Ref sig .tc := ⟨.hbm, 135, rfl⟩
abbrev main_cst_17 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩

abbrev nD : Nat := 1
abbrev τ : Topo := Topo.v7x

variable {F : FTy → Type} [FloatOps F]

class Facts₀ : Prop where
  bcast_S_S5120 : S_.BroadcastsInDim S5120 (![] : Fin 0 → Fin S5120.rank)
  bcast_S5120_S5120x1_0 : S5120.BroadcastsInDim S5120x1 (![0] : Fin 1 → Fin S5120x1.rank)
  slices_S2x10240_S1x10240_0_0 : S2x10240.Slices ![0, 0] S1x10240
  shapeCasts_S1x10240_S10240 : S1x10240.ShapeCasts S10240
  slices_S2x10240_S1x10240_1_0 : S2x10240.Slices ![1, 0] S1x10240
  bcast_S_S10240 : S_.BroadcastsInDim S10240 (![] : Fin 0 → Fin S10240.rank)
  bcast_S10240_S10240x1_0 : S10240.BroadcastsInDim S10240x1 (![0] : Fin 1 → Fin S10240x1.rank)
  bcast_S_S5120x128 : S_.BroadcastsInDim S5120x128 (![] : Fin 0 → Fin S5120x128.rank)
  transposes_S384x128_S128x384_1_0 : S384x128.Transposes [1, 0] S128x384
  slices_S5120x384_S5120x128_0_0 : S5120x384.Slices ![0, 0] S5120x128
  slices_S5120x384_S5120x128_0_128 : S5120x384.Slices ![0, 128] S5120x128
  slices_S5120x384_S5120x128_0_256 : S5120x384.Slices ![0, 256] S5120x128
  bcast_S_S256 : S_.BroadcastsInDim S256 (![] : Fin 0 → Fin S256.rank)
  bcast_S256_S256x1_0 : S256.BroadcastsInDim S256x1 (![0] : Fin 1 → Fin S256x1.rank)
  transposes_S128x128_S128x128_1_0 : S128x128.Transposes [1, 0] S128x128
  bcast_S128_S1x128_1 : S128.BroadcastsInDim S1x128 (![1] : Fin 1 → Fin S1x128.rank)
  bcast_S1x128_S5120x128_0_1 : S1x128.BroadcastsInDim S5120x128 (![0, 1] : Fin 2 → Fin S5120x128.rank)
  transposes_S1x128_S128x1_1_0 : S1x128.Transposes [1, 0] S128x1
  bcast_S1_S1x1_1 : S1.BroadcastsInDim S1x1 (![1] : Fin 1 → Fin S1x1.rank)
  bcast_S1x1_S5120x1_0_1 : S1x1.BroadcastsInDim S5120x1 (![0, 1] : Fin 2 → Fin S5120x1.rank)
  bcast_S5120x1_S5120x128_0_1 : S5120x1.BroadcastsInDim S5120x128 (![0, 1] : Fin 2 → Fin S5120x128.rank)
  bcast_S_S256x128 : S_.BroadcastsInDim S256x128 (![] : Fin 0 → Fin S256x128.rank)
  concatenates_S256x128_S256x128_S256x256_d1 : Shape.Concatenates [S256x128, S256x128] S256x256 1
  transposes_S128x256_S256x128_1_0 : S128x256.Transposes [1, 0] S256x128
  transposes_S100000x128_S128x100000_1_0 : S100000x128.Transposes [1, 0] S128x100000
  gather_S100000x128_S5120x1_S5120x128_1_0_n_n_0_1_1128_wf : GatherDims.WF S100000x128 S5120x1 S5120x128 [1] [0] [] [0] [] 1 ![1, 128]
  gather_S5120x128_S10240x1_S10240x128_1_0_n_n_0_1_1128_wf : GatherDims.WF S5120x128 S10240x1 S10240x128 [1] [0] [] [0] [] 1 ![1, 128]
  scatter_S5120x128_S10240x1_S10240x128_1_0_0_1_wf : ScatterDims.WF S5120x128 S10240x1 S10240x128 [1] [0] [0] 1
  dot_S5120x128_S128x384_S5120x384_1_0_0_1_n_n_wf : DotDims.WF S5120x128 S128x384 S5120x384 [1] [0] [0] [1] [] []
  scatter_S256_S5120x1_S5120_n_0_0_1_wf : ScatterDims.WF S256 S5120x1 S5120 [] [0] [0] 1
  gather_S5120x128_S256x1_S256x128_1_0_n_n_0_1_1128_wf : GatherDims.WF S5120x128 S256x1 S256x128 [1] [0] [] [0] [] 1 ![1, 128]
  gather_S256x128_S5120x1_S5120x128_1_0_n_n_0_1_1128_wf : GatherDims.WF S256x128 S5120x1 S5120x128 [1] [0] [] [0] [] 1 ![1, 128]
  dot_S5120x128_S128x128_S5120x128_1_0_0_1_n_n_wf : DotDims.WF S5120x128 S128x128 S5120x128 [1] [0] [0] [1] [] []
  dot_S5120x128_S128x1_S5120x1_1_0_0_1_n_n_wf : DotDims.WF S5120x128 S128x1 S5120x1 [1] [0] [0] [1] [] []
  scatter_S256x128_S5120x1_S5120x128_1_0_0_1_wf : ScatterDims.WF S256x128 S5120x1 S5120x128 [1] [0] [0] 1
  dot_S256x256_S256x128_S256x128_1_0_0_1_n_n_wf : DotDims.WF S256x256 S256x128 S256x128 [1] [0] [0] [1] [] []
  dot_S256x128_S128x128_S256x128_1_0_0_1_n_n_wf : DotDims.WF S256x128 S128x128 S256x128 [1] [0] [0] [1] [] []
  dot_S256x128_S128x100000_S256x100000_1_0_0_1_n_n_wf : DotDims.WF S256x128 S128x100000 S256x100000 [1] [0] [0] [1] [] []

variable [Facts₀]

def gather_S100000x128_S5120x1_S5120x128_1_0_n_n_0_1_1128 : GatherDims S100000x128 S5120x1 S5120x128 where
  offsetDims := [1]
  collapsedSliceDims := [0]
  operandBatchingDims := []
  startIndicesBatchingDims := []
  startIndexMap := [0]
  indexVectorDim := 1
  sliceSizes := ![1, 128]
  wf := gather_S100000x128_S5120x1_S5120x128_1_0_n_n_0_1_1128_wf
def gather_S5120x128_S10240x1_S10240x128_1_0_n_n_0_1_1128 : GatherDims S5120x128 S10240x1 S10240x128 where
  offsetDims := [1]
  collapsedSliceDims := [0]
  operandBatchingDims := []
  startIndicesBatchingDims := []
  startIndexMap := [0]
  indexVectorDim := 1
  sliceSizes := ![1, 128]
  wf := gather_S5120x128_S10240x1_S10240x128_1_0_n_n_0_1_1128_wf
def scatter_S5120x128_S10240x1_S10240x128_1_0_0_1 : ScatterDims S5120x128 S10240x1 S10240x128 where
  updateWindowDims := [1]
  insertedWindowDims := [0]
  scatterDimsToOperandDims := [0]
  indexVectorDim := 1
  wf := scatter_S5120x128_S10240x1_S10240x128_1_0_0_1_wf
def dot_S5120x128_S128x384_S5120x384_1_0_0_1_n_n : DotDims S5120x128 S128x384 S5120x384 where
  lhsContracting := [1]
  rhsContracting := [0]
  lhsNonContracting := [0]
  rhsNonContracting := [1]
  lhsBatch := []
  rhsBatch := []
  wf := dot_S5120x128_S128x384_S5120x384_1_0_0_1_n_n_wf
def scatter_S256_S5120x1_S5120_n_0_0_1 : ScatterDims S256 S5120x1 S5120 where
  updateWindowDims := []
  insertedWindowDims := [0]
  scatterDimsToOperandDims := [0]
  indexVectorDim := 1
  wf := scatter_S256_S5120x1_S5120_n_0_0_1_wf
def gather_S5120x128_S256x1_S256x128_1_0_n_n_0_1_1128 : GatherDims S5120x128 S256x1 S256x128 where
  offsetDims := [1]
  collapsedSliceDims := [0]
  operandBatchingDims := []
  startIndicesBatchingDims := []
  startIndexMap := [0]
  indexVectorDim := 1
  sliceSizes := ![1, 128]
  wf := gather_S5120x128_S256x1_S256x128_1_0_n_n_0_1_1128_wf
def gather_S256x128_S5120x1_S5120x128_1_0_n_n_0_1_1128 : GatherDims S256x128 S5120x1 S5120x128 where
  offsetDims := [1]
  collapsedSliceDims := [0]
  operandBatchingDims := []
  startIndicesBatchingDims := []
  startIndexMap := [0]
  indexVectorDim := 1
  sliceSizes := ![1, 128]
  wf := gather_S256x128_S5120x1_S5120x128_1_0_n_n_0_1_1128_wf
def dot_S5120x128_S128x128_S5120x128_1_0_0_1_n_n : DotDims S5120x128 S128x128 S5120x128 where
  lhsContracting := [1]
  rhsContracting := [0]
  lhsNonContracting := [0]
  rhsNonContracting := [1]
  lhsBatch := []
  rhsBatch := []
  wf := dot_S5120x128_S128x128_S5120x128_1_0_0_1_n_n_wf
def dot_S5120x128_S128x1_S5120x1_1_0_0_1_n_n : DotDims S5120x128 S128x1 S5120x1 where
  lhsContracting := [1]
  rhsContracting := [0]
  lhsNonContracting := [0]
  rhsNonContracting := [1]
  lhsBatch := []
  rhsBatch := []
  wf := dot_S5120x128_S128x1_S5120x1_1_0_0_1_n_n_wf
def scatter_S256x128_S5120x1_S5120x128_1_0_0_1 : ScatterDims S256x128 S5120x1 S5120x128 where
  updateWindowDims := [1]
  insertedWindowDims := [0]
  scatterDimsToOperandDims := [0]
  indexVectorDim := 1
  wf := scatter_S256x128_S5120x1_S5120x128_1_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x100000_S256x100000_1_0_0_1_n_n : DotDims S256x128 S128x100000 S256x100000 where
  lhsContracting := [1]
  rhsContracting := [0]
  lhsNonContracting := [0]
  rhsNonContracting := [1]
  lhsBatch := []
  rhsBatch := []
  wf := dot_S256x128_S128x100000_S256x100000_1_0_0_1_n_n_wf

class Facts : Prop extends Facts₀ where

variable [Facts]
-- ==== Proof.KitKernel.lean ====
/-
  @main of this program is a line of 132 host operations followed by one pallas_call. Here: what every TensorCore
  buffer holds when the call is entered (`V`: the launch memory pushed through the 132 operations, each writing its own
  result buffer and nothing else), that @main is that line and then the call, and that none of the fifteen argument
  arrays is the result buffer of any of the operations, so the call finds each argument as launched.
-/
import proofs.«114994_j49898930045082_2_alg».proof.Proof.Gen.Kernel.Launch
import proofs.«114994_j49898930045082_2_alg».proof.Proof.Gen.Kernel.Points
import proofs.«114994_j49898930045082_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- Core `c`'s TensorCore buffers when the pallas_call is entered: the launch memory after the 132 host operations. -/
abbrev V (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Argument 0 is the result buffer of no host operation. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 1 is the result buffer of no host operation. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 2 is the result buffer of no host operation. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 3 is the result buffer of no host operation. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 4 is the result buffer of no host operation. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 5 is the result buffer of no host operation. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 6 is the result buffer of no host operation. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 7 is the result buffer of no host operation. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 8 is the result buffer of no host operation. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 9 is the result buffer of no host operation. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 10 is the result buffer of no host operation. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 11 is the result buffer of no host operation. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 12 is the result buffer of no host operation. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 13 is the result buffer of no host operation. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 14 is the result buffer of no host operation. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

end Cert.Kernel.Hand

end
-- ==== Proof.BodyKernel.lean ====
/-
  The kernel body at one grid point, on whole staging memrefs: it loads the tile of 3456 item rows and the stacked
  768 x 128 coefficient block, and stores into each of the three result buffers the product of one 256-row third of
  the coefficients with the transposed tile. So the two input buffers end as they were and result buffer k holds
  the k-th product of what the input buffers held, whatever the result buffers held before.
-/
import proofs.«114994_j49898930045082_2_alg».proof.Proof.KitKernel
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three whole-buffer rectangles the body loads and stores through. -/
abbrev rC : Rect S768x128 := Rect.unit (s := S768x128) ![0, 0] S768x128.size inb_S768x128_S768x128_0_0
abbrev rE : Rect S3456x128 := Rect.unit (s := S3456x128) ![0, 0] S3456x128.size inb_S3456x128_S3456x128_0_0
abbrev rO : Rect S256x3456 := Rect.unit (s := S256x3456) ![0, 0] S256x3456.size inb_S256x3456_S256x3456_0_0

/-- What result buffer k holds after the body, from what the coefficient buffer (`xC`) and the tile buffer (`xE`) hold:
    its one whole-buffer store. -/
def prod1 (xC : Vec F S768x128 .bf16) (xE : Vec F S3456x128 .f32) : Vec F S256x3456 .f32 :=
  View.canon [⟨rO, k0_pay3 (View.ld xE rE) (View.ld xC rC)⟩]
def prod2 (xC : Vec F S768x128 .bf16) (xE : Vec F S3456x128 .f32) : Vec F S256x3456 .f32 :=
  View.canon [⟨rO, k0_pay4 (View.ld xE rE) (View.ld xC rC)⟩]
def prod3 (xC : Vec F S768x128 .bf16) (xE : Vec F S3456x128 .f32) : Vec F S256x3456 .f32 :=
  View.canon [⟨rO, k0_pay5 (View.ld xE rE) (View.ld xC rC)⟩]

/-- The zero offsets, as the constant function. -/
theorem off_zero : (![0, 0] : Fin 2 → Nat) = fun _ => 0 := funext fun a => by fin_cases a <;> rfl

/-- A whole-buffer load reads the contents and one whole-buffer store leaves its payload: each result buffer holds the
    payload of what the two input buffers hold. -/
theorem prod1_eq (xC : Vec F S768x128 .bf16) (xE : Vec F S3456x128 .f32) : prod1 xC xE = k0_pay3 xE xC := by
  unfold prod1
  rw [View.canon_unit_zero off_zero, View.ld_unit_zero (S := S3456x128) off_zero, View.ld_unit_zero (S := S768x128) off_zero]
theorem prod2_eq (xC : Vec F S768x128 .bf16) (xE : Vec F S3456x128 .f32) : prod2 xC xE = k0_pay4 xE xC := by
  unfold prod2
  rw [View.canon_unit_zero off_zero, View.ld_unit_zero (S := S3456x128) off_zero, View.ld_unit_zero (S := S768x128) off_zero]
theorem prod3_eq (xC : Vec F S768x128 .bf16) (xE : Vec F S3456x128 .f32) : prod3 xC xE = k0_pay5 xE xC := by
  unfold prod3
  rw [View.canon_unit_zero off_zero, View.ld_unit_zero (S := S3456x128) off_zero, View.ld_unit_zero (S := S768x128) off_zero]

/-- The one store covers its buffer. -/
theorem store_covers (p0 : Vec F S256x3456 .f32) (y : S256x3456.Idx) :
    ∃ pc ∈ ([⟨rO, p0⟩] : List (View.Piece (Elt F) S256x3456 .f32)), y ∈ pc.1.set :=
  View.cover_of_tiled [⟨rO, p0⟩] S256x3456.size (by rfl) y

set_option maxHeartbeats 1000000 in
/-- The body's triple. -/
theorem body_triple (c : Dev nD) (E : Set ℕ) (i : grid0.Coords)
    (arg1 : Memref sig .tc .vmem S768x128 .bf16) (harg1 : arg1.IsWhole) (arg2 : Memref sig .tc .vmem S3456x128 .f32) (harg2 : arg2.IsWhole)
    (arg3 : Memref sig .tc .vmem S256x3456 .f32) (harg3 : arg3.IsWhole) (arg4 : Memref sig .tc .vmem S256x3456 .f32) (harg4 : arg4.IsWhole)
    (arg5 : Memref sig .tc .vmem S256x3456 .f32) (harg5 : arg5.IsWhole)
    (xC : Vec F S768x128 .bf16) (xE : Vec F S3456x128 .f32) (K : PUnit → sProp 𝕄) :
    iprop(owns (c : Thread nD τ) arg1 fullShare xC ∗ owns (c : Thread nD τ) arg2 fullShare xE
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare xC ∗ owns (c : Thread nD τ) arg2 fullShare xE
            ∗ owns (c : Thread nD τ) arg3 fullShare (prod1 xC xE) ∗ owns (c : Thread nD τ) arg4 fullShare (prod2 xC xE)
            ∗ owns (c : Thread nD τ) arg5 fullShare (prod3 xC xE)) -∗ K ⟨⟩))
      ⊢ wp frame (wpE (defs₀ (F := F)) Variants.none c none) E (cc0__fused_matmul_kernel i arg1 harg1 arg2 harg2 arg3 harg3 arg4 harg4 arg5 harg5) K := by
  simp only [cc0__fused_matmul_kernel_eq_skeleton]; unfold cc0__fused_matmul_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (store_covers _)
  isplitl [H4]
  · iexists _; isplitr
    swap; · iexact H4
    ipureintro
    exact View.read_writes_eq_canon _ _ _ (store_covers _)
  · iexists _; isplitr
    swap; · iexact H5
    ipureintro
    exact View.read_writes_eq_canon _ _ _ (store_covers _)

end Cert.Kernel.Hand

end
-- ==== Proof.FrameKernel.lean ====
/-
  The frame of this program: every weakly fair execution of @main ends, nothing faults, and the fifteen argument arrays
  end as launched. Nothing is said here of what the three result arrays hold: the proof data names no staging contents
  (each buffer is handed to the body holding something and taken back holding something), which is all the body needs,
  since it only loads whole buffers it owns and stores whole buffers it owns. The tile array is a window the call only
  reads, so it ends as the call found it; the other fourteen arguments are no window of the call and bypass it.
-/
import proofs.«114994_j49898930045082_2_alg».proof.Proof.BodyKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Proof data that names no staging contents: the arrays as the call finds them, the class invariant, nothing owed. -/
def datsF (_ : Fin 1) (c : Dev nD) : Dat τ (Elt F) Unit ℕ (UR sig nD τ) ℕ cfg0 c where
  A w := V m c (Pipeline.arrRef spec0 w)
  after w t := Pipeline.Dat.unnamed w t
  Φ _ := Pipeline.ΦA spec0 c
  q _ := fullShare
  owed _ := 0

theorem A_eqF (c : Dev nD) (w : Fin cfg0.W) : (datsF m 0 c).A w = V m c (Pipeline.arrRef spec0 w) := by
  dsimp only [datsF]

/-- What the body is called with at point `t` when nothing is named, and what it returns. -/
def prePostF (c : Dev nD) (t : Fin cfg0.N) : sProp 𝕄 :=
  iprop((datsF m 0 c).Φ t.castSucc ∗ (datsF m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X)
    ∗ (∃ X, owns (c : Thread nD τ) (st0_3 t) fullShare X)
    ∗ (∃ X, owns (c : Thread nD τ) (st0_4 t) fullShare X))

/-- The body at any point hands every buffer back. -/
theorem body_anyF (c : Dev nD) (t : Fin cfg0.N) :
    prePostF m c t ⊢ wp frame (wpE (defs₀ (F := F)) Variants.none c none) Set.univ (bodyAt0 t) (fun _ => prePostF m c t) := by
  unfold prePostF bodyAt0
  iintro ⟨HΦ, Ho, ⟨%X0, H0⟩, ⟨%X1, H1⟩, H2, H3, H4⟩
  iapply (body_triple c Set.univ _ _ _ _ _ _ _ _ _ _ _ X0 X1 _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  iexists _; iexact H4

/-- The library's body obligation with every window forgotten. -/
theorem body_forget (c : Dev nD) :
    BodyObligationLoose (datsF (F := F) m 0 c) (defs₀ (F := F)) Variants.none () Set.univ (fun _ => true) := fun t => by
  rw [bigSep_W0]
  try rw [bigSep_W0]
  exact body_anyF m c t

set_option backward.isDefEq.respectTransparency.types false in
/-- The run: @main ends, every window's array holds something the relation allows, every other unscoped buffer what the
    call found. -/
theorem run_forget : θ_run defs (onTc (τ := τ) (main (F := F))) (s₀ m ρ)
    (Pipeline.RDat.FramePost cfg0 (fun c => (datsF m 0 c).toRForget fun _ => true) (V m)) :=
  Pipeline.RDat.θ_run_frame cfgs (0 : Fin 1) launch0 defs₀ Variants.none (fun c => (datsF m 0 c).toRForget fun _ => true) m ρ main
    (hbody := fun c => (body_forget m c).toRForget) (hshare := fun c => (datsF m 0 c).share_full fun _ => rfl)
    (howed := fun _ _ => rfl) (V := V m) (hmain := hmain m Variants.none) (hA := A_eqF m) (hΦ := fun _ _ => rfl)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((congrFun (((datsF m 0 c).toRForget fun _ => true).ArrAt_in 1 rfl cfg0.N) _).mp ((h c).1 1)).trans ((A_eqF m c 1).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_forget m ρ)

end Cert.Kernel.Hand

end
-- ==== Proof.KitKernelIdeal.lean ====
/-
  @main of this program is a line of 132 host operations followed by one pallas_call. Here: what every TensorCore
  buffer holds when the call is entered (`V`: the launch memory pushed through the 132 operations, each writing its own
  result buffer and nothing else), that @main is that line and then the call, and that none of the fifteen argument
  arrays is the result buffer of any of the operations, so the call finds each argument as launched.
-/
import proofs.«114994_j49898930045082_2_alg».proof.Proof.Gen.KernelIdeal.Launch
import proofs.«114994_j49898930045082_2_alg».proof.Proof.Gen.KernelIdeal.Points
import proofs.«114994_j49898930045082_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ) (ρ : Dev nD → PrngReg)

/-- Core `c`'s TensorCore buffers when the pallas_call is entered: the launch memory after the 132 host operations. -/
abbrev V (c : Dev nD) (b : Ref sig .tc) : Buf (Elt F) ((c : Thread nD τ).loc b) := StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Argument 0 is the result buffer of no host operation. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 1 is the result buffer of no host operation. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 2 is the result buffer of no host operation. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 3 is the result buffer of no host operation. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 4 is the result buffer of no host operation. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 5 is the result buffer of no host operation. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 6 is the result buffer of no host operation. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 7 is the result buffer of no host operation. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 8 is the result buffer of no host operation. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 9 is the result buffer of no host operation. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 10 is the result buffer of no host operation. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 11 is the result buffer of no host operation. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 12 is the result buffer of no host operation. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 13 is the result buffer of no host operation. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
/-- Argument 14 is the result buffer of no host operation. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

end Cert.KernelIdeal.Hand

end
-- ==== Proof.LibNary3.lean ====
/-
  A host operation with a LITERAL family of three operand references (a concatenation of three pieces): its result
  with each operand's contents at its own reference, so that reading a line of host operations goes on through the
  three operands. Stated for three references exactly as the library states it for four; with the general statement
  the operands stay under a binder, where their references are no literals and nothing more can be read.
  Also the one-pass reading of a line of host operations with this statement in the general one's place.
-/
import Idealize.ShloMosaic.Lib.StableHlo.Run

noncomputable section

namespace Cert.Nary3

open Idealize.ShloMosaic Idealize.ShloMosaic.StableHlo Idealize.ShloMosaic.TcCoe

variable {τ : Topo} {sig : RefSig} {Val : EltTy → Type}
variable {x a b y : Ref sig .tc}

/-- The result of an operation over the three literal references `x`, `a`, `b`: its function at the three
    operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, the result reference un-indexed for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- What one buffer holds after a literal line of host operations, as ONE simp pass: each operation's result at its
    own result buffer is its function's value, at any other reference what was there; a three-operand operation by
    `nary3_result'`. -/
macro "after_results_simp3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Cert.Nary3

end
-- ==== Proof.CoefIdeal.lean ====
/-
  The coefficient stack the pallas_call finds in its first window is built by the last host operations before it: the
  three 256 x 128 matrices sigmoid(...) @ W_k^T, k = 1, 2, 3 (host results 105, 107 and 109), stacked along the rows
  and converted to the narrower float format, which at the ideal values is the identity. So the k-th 256-row third of
  the stack is the k-th matrix.
-/
import proofs.«114994_j49898930045082_2_alg».proof.Proof.KitKernelIdeal
import proofs.«114994_j49898930045082_2_alg».proof.Proof.LibNary3
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx Idealize.SL.Sem
open Cert.Nary3

variable (m : (ℓ : Loc nD τ sig) → Buf (Elt Ideal) ℓ)

/-- The three coefficient matrices as the host operations leave them. -/
def coef1 (c : Dev nD) : S256x128.Idx → EReal := V m c main_v105
def coef2 (c : Dev nD) : S256x128.Idx → EReal := V m c main_v107
def coef3 (c : Dev nD) : S256x128.Idx → EReal := V m c main_v109

set_option maxHeartbeats 8000000 in
/-- What the call finds in its first window's array: the three matrices stacked (and converted, which changes nothing). -/
theorem stack_eq (c : Dev nD) :
    (V m c main_v111 : S768x128.Idx → EReal)
      = truncf (F := Ideal) .bf16 (concatenate S768x128 0 [⟨S256x128, coef1 m c⟩, ⟨S256x128, coef2 m c⟩, ⟨S256x128, coef3 m c⟩]
          concatenates_S256x128_S256x128_S256x128_S768x128_d0) bitsLt_bf16_f32 := by
  unfold coef1 coef2 coef3
  dsimp only [V, hostOps0]
  after_results_simp3 <;> rfl

/-- Row `o + p` of the stack, for o = 0, 256, 512, is row p of the first, second, third matrix. -/
theorem stack_row1 (c : Dev nD) (p : Fin 256) (k : Fin 128) :
    (V m c main_v111 : S768x128.Idx → EReal) (ix2 (⟨0 + p.val, by omega⟩ : Fin 768) k) = coef1 m c (ix2 p k) := by
  rw [stack_eq]
  exact concatenate_apply_piece (0 : Fin S768x128.rank) [⟨S256x128, coef1 m c⟩, ⟨S256x128, coef2 m c⟩, ⟨S256x128, coef3 m c⟩]
    concatenates_S256x128_S256x128_S256x128_S768x128_d0 (ix2 (⟨0 + p.val, by omega⟩ : Fin 768) k) 0 (by show (0 : Nat) < 3; omega) S256x128 (coef1 m c) rfl rfl 0 rfl
    (ix2 p k) (fun b hb => by match b with | ⟨0, _⟩ => exact absurd rfl hb | ⟨1, _⟩ => rfl) rfl
theorem stack_row2 (c : Dev nD) (p : Fin 256) (k : Fin 128) :
    (V m c main_v111 : S768x128.Idx → EReal) (ix2 (⟨256 + p.val, by omega⟩ : Fin 768) k) = coef2 m c (ix2 p k) := by
  rw [stack_eq]
  exact concatenate_apply_piece (0 : Fin S768x128.rank) [⟨S256x128, coef1 m c⟩, ⟨S256x128, coef2 m c⟩, ⟨S256x128, coef3 m c⟩]
    concatenates_S256x128_S256x128_S256x128_S768x128_d0 (ix2 (⟨256 + p.val, by omega⟩ : Fin 768) k) 1 (by show (1 : Nat) < 3; omega) S256x128 (coef2 m c) rfl rfl 256 rfl
    (ix2 p k) (fun b hb => by match b with | ⟨0, _⟩ => exact absurd rfl hb | ⟨1, _⟩ => rfl) rfl
theorem stack_row3 (c : Dev nD) (p : Fin 256) (k : Fin 128) :
    (V m c main_v111 : S768x128.Idx → EReal) (ix2 (⟨512 + p.val, by omega⟩ : Fin 768) k) = coef3 m c (ix2 p k) := by
  rw [stack_eq]
  exact concatenate_apply_piece (0 : Fin S768x128.rank) [⟨S256x128, coef1 m c⟩, ⟨S256x128, coef2 m c⟩, ⟨S256x128, coef3 m c⟩]
    concatenates_S256x128_S256x128_S256x128_S768x128_d0 (ix2 (⟨512 + p.val, by omega⟩ : Fin 768) k) 2 (by show (2 : Nat) < 3; omega) S256x128 (coef3 m c) rfl rfl 512 rfl
    (ix2 p k) (fun b hb => by match b with | ⟨0, _⟩ => exact absurd rfl hb | ⟨1, _⟩ => rfl) rfl

end Cert.KernelIdeal.Hand

end
-- ==== Proof.BodyKernelIdeal.lean ====
/-
  The kernel body at one grid point, on whole staging memrefs: it loads the tile of 3456 item rows and the stacked
  768 x 128 coefficient block, and stores into each of the three result buffers the product of one 256-row third of
  the coefficients with the transposed tile. So the two input buffers end as they were and result buffer k holds
  the k-th product of what the input buffers held, whatever the result buffers held before.
-/
import proofs.«114994_j49898930045082_2_alg».proof.Proof.KitKernelIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three whole-buffer rectangles the body loads and stores through. -/
abbrev rC : Rect S768x128 := Rect.unit (s := S768x128) ![0, 0] S768x128.size inb_S768x128_S768x128_0_0
abbrev rE : Rect S3456x128 := Rect.unit (s := S3456x128) ![0, 0] S3456x128.size inb_S3456x128_S3456x128_0_0
abbrev rO : Rect S256x3456 := Rect.unit (s := S256x3456) ![0, 0] S256x3456.size inb_S256x3456_S256x3456_0_0

/-- What result buffer k holds after the body, from what the coefficient buffer (`xC`) and the tile buffer (`xE`) hold:
    its one whole-buffer store. -/
def prod1 (xC : Vec F S768x128 .bf16) (xE : Vec F S3456x128 .f32) : Vec F S256x3456 .f32 :=
  View.canon [⟨rO, k0_pay3 (View.ld xE rE) (View.ld xC rC)⟩]
def prod2 (xC : Vec F S768x128 .bf16) (xE : Vec F S3456x128 .f32) : Vec F S256x3456 .f32 :=
  View.canon [⟨rO, k0_pay4 (View.ld xE rE) (View.ld xC rC)⟩]
def prod3 (xC : Vec F S768x128 .bf16) (xE : Vec F S3456x128 .f32) : Vec F S256x3456 .f32 :=
  View.canon [⟨rO, k0_pay5 (View.ld xE rE) (View.ld xC rC)⟩]

/-- The zero offsets, as the constant function. -/
theorem off_zero : (![0, 0] : Fin 2 → Nat) = fun _ => 0 := funext fun a => by fin_cases a <;> rfl

/-- A whole-buffer load reads the contents and one whole-buffer store leaves its payload: each result buffer holds the
    payload of what the two input buffers hold. -/
theorem prod1_eq (xC : Vec F S768x128 .bf16) (xE : Vec F S3456x128 .f32) : prod1 xC xE = k0_pay3 xE xC := by
  unfold prod1
  rw [View.canon_unit_zero off_zero, View.ld_unit_zero (S := S3456x128) off_zero, View.ld_unit_zero (S := S768x128) off_zero]
theorem prod2_eq (xC : Vec F S768x128 .bf16) (xE : Vec F S3456x128 .f32) : prod2 xC xE = k0_pay4 xE xC := by
  unfold prod2
  rw [View.canon_unit_zero off_zero, View.ld_unit_zero (S := S3456x128) off_zero, View.ld_unit_zero (S := S768x128) off_zero]
theorem prod3_eq (xC : Vec F S768x128 .bf16) (xE : Vec F S3456x128 .f32) : prod3 xC xE = k0_pay5 xE xC := by
  unfold prod3
  rw [View.canon_unit_zero off_zero, View.ld_unit_zero (S := S3456x128) off_zero, View.ld_unit_zero (S := S768x128) off_zero]

/-- The one store covers its buffer. -/
theorem store_covers (p0 : Vec F S256x3456 .f32) (y : S256x3456.Idx) :
    ∃ pc ∈ ([⟨rO, p0⟩] : List (View.Piece (Elt F) S256x3456 .f32)), y ∈ pc.1.set :=
  View.cover_of_tiled [⟨rO, p0⟩] S256x3456.size (by rfl) y

set_option maxHeartbeats 1000000 in
/-- The body's triple. -/
theorem body_triple (c : Dev nD) (E : Set ℕ) (i : grid0.Coords)
    (arg1 : Memref sig .tc .vmem S768x128 .bf16) (harg1 : arg1.IsWhole) (arg2 : Memref sig .tc .vmem S3456x128 .f32) (harg2 : arg2.IsWhole)
    (arg3 : Memref sig .tc .vmem S256x3456 .f32) (harg3 : arg3.IsWhole) (arg4 : Memref sig .tc .vmem S256x3456 .f32) (harg4 : arg4.IsWhole)
    (arg5 : Memref sig .tc .vmem S256x3456 .f32) (harg5 : arg5.IsWhole)
    (xC : Vec F S768x128 .bf16) (xE : Vec F S3456x128 .f32) (K : PUnit → sProp 𝕄) :
    iprop(owns (c : Thread nD τ) arg1 fullShare xC ∗ owns (c : Thread nD τ) arg2 fullShare xE
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare xC ∗ owns (c : Thread nD τ) arg2 fullShare xE
            ∗ owns (c : Thread nD τ) arg3 fullShare (prod1 xC xE) ∗ owns (c : Thread nD τ) arg4 fullShare (prod2 xC xE)
            ∗ owns (c : Thread nD τ) arg5 fullShare (prod3 xC xE)) -∗ K ⟨⟩))
      ⊢ wp frame (wpE (defs₀ (F := F)) Variants.none c none) E (cc0__fused_matmul_kernel i arg1 harg1 arg2 harg2 arg3 harg3 arg4 harg4 arg5 harg5) K := by
  simp only [cc0__fused_matmul_kernel_eq_skeleton]; unfold cc0__fused_matmul_kernel_skel
  unfold owns
  iintro ⟨⟨%f1, %hf1, H1⟩, ⟨%f2, %hf2, H2⟩, ⟨%d3, %f3, -, H3⟩, ⟨%d4, %f4, -, H4⟩, ⟨%d5, %f5, -, H5⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (store_covers _)
  isplitl [H4]
  · iexists _; isplitr
    swap; · iexact H4
    ipureintro
    exact View.read_writes_eq_canon _ _ _ (store_covers _)
  · iexists _; isplitr
    swap; · iexact H5
    ipureintro
    exact View.read_writes_eq_canon _ _ _ (store_covers _)

end Cert.KernelIdeal.Hand

end
-- ==== Proof.PayIdeal.lean ====
/-
  At the ideal values the body's three payloads, read at an entry (p, q) of a 256 x 3456 result block, are plain sums
  over the 128 hidden coordinates: row p of the k-th 256-row third of the stacked coefficients times row q of the
  item tile. The matrix unit's product into a zero accumulator is that sum; the change of float format before it is
  the identity; a third of the stack is the stack read 0, 256 or 512 rows further down.
-/
import proofs.«114994_j49898930045082_2_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.PayIdeal

open Cert.KernelIdeal Cert.KernelIdeal.Gen Idealize.ShloMosaic Idealize.ShloMosaic.ValueIdx

/-- Where the product reads its operands: the left one at (row of the entry, hidden coordinate), the right one at
    (column of the entry, hidden coordinate). -/
theorem lhs0 (i : S256x3456.Idx) (q : dot_S256x128_S3456x128_S256x3456_1_1_0_0_n_n.contr.Idx) : (dot_S256x128_S3456x128_S256x3456_1_1_0_0_n_n.lhsIdx i q 0).val = (i 0).val := by
  unfold DotDims.lhsIdx
  rw [dif_neg (show ¬(0 : Fin S256x128.rank) ∈ dot_S256x128_S3456x128_S256x3456_1_1_0_0_n_n.lhsBatch by decide), dif_pos (show (0 : Fin S256x128.rank) ∈ dot_S256x128_S3456x128_S256x3456_1_1_0_0_n_n.lhsNonContracting by decide)]
  rfl
theorem lhs1 (i : S256x3456.Idx) (q : dot_S256x128_S3456x128_S256x3456_1_1_0_0_n_n.contr.Idx) : (dot_S256x128_S3456x128_S256x3456_1_1_0_0_n_n.lhsIdx i q 1).val = (q ⟨0, by decide⟩).val :=
  dot_S256x128_S3456x128_S256x3456_1_1_0_0_n_n.lhsIdx_val_of_single rfl i q
theorem rhs0 (i : S256x3456.Idx) (q : dot_S256x128_S3456x128_S256x3456_1_1_0_0_n_n.contr.Idx) : (dot_S256x128_S3456x128_S256x3456_1_1_0_0_n_n.rhsIdx i q 0).val = (i 1).val := by
  unfold DotDims.rhsIdx
  rw [dif_neg (show ¬(0 : Fin S3456x128.rank) ∈ dot_S256x128_S3456x128_S256x3456_1_1_0_0_n_n.rhsBatch by decide), dif_pos (show (0 : Fin S3456x128.rank) ∈ dot_S256x128_S3456x128_S256x3456_1_1_0_0_n_n.rhsNonContracting by decide)]
  rfl
theorem rhs1 (i : S256x3456.Idx) (q : dot_S256x128_S3456x128_S256x3456_1_1_0_0_n_n.contr.Idx) : (dot_S256x128_S3456x128_S256x3456_1_1_0_0_n_n.rhsIdx i q 1).val = (q ⟨0, by decide⟩).val :=
  dot_S256x128_S3456x128_S256x3456_1_1_0_0_n_n.rhsIdx_val_of_single rfl i q

/-- The product into a zero accumulator, at an entry. -/
theorem prod_apply (l : FVec Ideal S256x128 .bf16) (r : FVec Ideal S3456x128 .bf16) (p : Fin 256) (q : Fin 3456) :
    matmul dot_S256x128_S3456x128_S256x3456_1_1_0_0_n_n none l r (constant S256x3456 .f32 0x00000000#32) (ix2 p q)
      = ∑ k : Fin 128, (l (ix2 p k) : EReal) * (r (ix2 q k) : EReal) := by
  simp only [matmul]
  rw [Ideal.matmul_constant_zero_apply, ← Equiv.sum_comp (contrEquiv1 dot_S256x128_S3456x128_S256x3456_1_1_0_0_n_n 128 rfl rfl).symm]
  refine Finset.sum_congr rfl fun k _ => ?_
  have hk := contrEquiv1_symm_val dot_S256x128_S3456x128_S256x3456_1_1_0_0_n_n 128 rfl rfl k
  have el : dot_S256x128_S3456x128_S256x3456_1_1_0_0_n_n.lhsIdx (ix2 p q) ((contrEquiv1 dot_S256x128_S3456x128_S256x3456_1_1_0_0_n_n 128 rfl rfl).symm k) = ix2 p k := funext fun a => Fin.ext (by
    match a with
    | ⟨0, _⟩ => exact lhs0 _ _
    | ⟨1, _⟩ => exact (lhs1 _ _).trans hk)
  have er : dot_S256x128_S3456x128_S256x3456_1_1_0_0_n_n.rhsIdx (ix2 p q) ((contrEquiv1 dot_S256x128_S3456x128_S256x3456_1_1_0_0_n_n 128 rfl rfl).symm k) = ix2 q k := funext fun a => Fin.ext (by
    match a with
    | ⟨0, _⟩ => exact rhs0 _ _
    | ⟨1, _⟩ => exact (rhs1 _ _).trans hk)
  rw [el, er]

/-- A 256-row third of the stacked coefficients, `o` rows down, at an entry. -/
theorem third_apply (o : Nat) (ho : o + 256 ≤ 768) (h : S768x128.Slices ![o, 0] S256x128) (xC : Vec Ideal S768x128 .bf16) (p : Fin 256) (k : Fin 128) :
    extractStridedSlice S256x128 ![o, 0] (shapeCast S768x128 xC shapeCasts_S768x128_S768x128) h (ix2 p k)
      = xC (ix2 (⟨o + p.val, by omega⟩ : Fin 768) k) :=
  (extractStridedSlice_apply ![o, 0] _ h (ix2 p k) (ix2 (⟨o + p.val, by omega⟩ : Fin 768) k) (fun a => by
    match a with
    | ⟨0, _⟩ => rfl
    | ⟨1, _⟩ => exact (Nat.zero_add _).symm)).trans (congrFun (shapeCast_self xC shapeCasts_S768x128_S768x128) _)

/-- The three payloads at an entry. -/
theorem pay3_apply (xE : Vec Ideal S3456x128 .f32) (xC : Vec Ideal S768x128 .bf16) (p : Fin 256) (q : Fin 3456) :
    k0_pay3 (F := Ideal) xE xC (ix2 p q)
      = ∑ k : Fin 128, (xC (ix2 (⟨0 + p.val, by omega⟩ : Fin 768) k) : EReal) * (xE (ix2 q k) : EReal) := by
  unfold k0_pay3 k0_pay2 k0_pay1
  refine (prod_apply _ _ p q).trans (Finset.sum_congr rfl fun k _ => ?_)
  exact congrArg (· * (xE (ix2 q k) : EReal)) (third_apply 0 (by omega) slices_S768x128_o0_0_S256x128 xC p k)
theorem pay4_apply (xE : Vec Ideal S3456x128 .f32) (xC : Vec Ideal S768x128 .bf16) (p : Fin 256) (q : Fin 3456) :
    k0_pay4 (F := Ideal) xE xC (ix2 p q)
      = ∑ k : Fin 128, (xC (ix2 (⟨256 + p.val, by omega⟩ : Fin 768) k) : EReal) * (xE (ix2 q k) : EReal) := by
  unfold k0_pay4 k0_pay2 k0_pay1
  refine (prod_apply _ _ p q).trans (Finset.sum_congr rfl fun k _ => ?_)
  exact congrArg (· * (xE (ix2 q k) : EReal)) (third_apply 256 (by omega) slices_S768x128_o256_0_S256x128 xC p k)
theorem pay5_apply (xE : Vec Ideal S3456x128 .f32) (xC : Vec Ideal S768x128 .bf16) (p : Fin 256) (q : Fin 3456) :
    k0_pay5 (F := Ideal) xE xC (ix2 p q)
      = ∑ k : Fin 128, (xC (ix2 (⟨512 + p.val, by omega⟩ : Fin 768) k) : EReal) * (xE (ix2 q k) : EReal) := by
  unfold k0_pay5 k0_pay2 k0_pay1
  refine (prod_apply _ _ p q).trans (Finset.sum_congr rfl fun k _ => ?_)
  exact congrArg (· * (xE (ix2 q k) : EReal)) (third_apply 512 (by omega) slices_S768x128_o512_0_S256x128 xC p k)

end Cert.KernelIdeal.PayIdeal

end
-- ==== Proof.Spec.lean ====
/-
  The specification both programs meet: for a 256 x 128 coefficient matrix `cf` and the 100000 x 128 item table `e`,
  the score of session s against item j is the sum over the 128 hidden coordinates of cf(s, k) * e(j, k).
-/
import Idealize.ShloMosaic.Lib.ValueIdx
import Idealize.ShloMosaic.PureOps.Ideal

noncomputable section

namespace Cert.Spec

open Idealize.ShloMosaic Idealize.ShloMosaic.ValueIdx

/-- Scores of every session against every item. -/
def score (cf : (⟨2, ![256, 128]⟩ : Shape).Idx → EReal) (e : (⟨2, ![100000, 128]⟩ : Shape).Idx → EReal) :
    (⟨2, ![256, 100000]⟩ : Shape).Idx → EReal :=
  fun i => ∑ k : Fin 128, cf (ix2 (⟨(i 0).val, (i 0).isLt⟩ : Fin 256) k) * e (ix2 (⟨(i 1).val, (i 1).isLt⟩ : Fin 100000) k)

theorem score_apply (cf : (⟨2, ![256, 128]⟩ : Shape).Idx → EReal) (e : (⟨2, ![100000, 128]⟩ : Shape).Idx → EReal)
    (s : Fin 256) (j : Fin 100000) : score cf e (ix2 s j) = ∑ k : Fin 128, cf (ix2 s k) * e (ix2 j k) := rfl

end Cert.Spec

end
-- ==== Proof.BlocksIdeal.lean ====
/-
  The kernel at the ideal values, point by point. Grid point t (of 29) handles items 3456 t ... 3456 t + 3455; the last
  point's tile hangs 224 rows over the table's end, and those rows of its buffer hold words nothing names. Result k's
  block at point t is 256 rows by the tile's items. The body's result at entry (p, q) is the sum over the hidden coordinate
  of stack row (256 (k-1) + p) times tile row q, so on the part of the block inside the array it is the score of
  coefficient matrix k against the table: what the overhanging rows hold never enters an entry that is written back.
-/
import proofs.«114994_j49898930045082_2_alg».proof.Proof.CoefIdeal
import proofs.«114994_j49898930045082_2_alg».proof.Proof.BodyKernelIdeal
import proofs.«114994_j49898930045082_2_alg».proof.Proof.PayIdeal
import proofs.«114994_j49898930045082_2_alg».proof.Proof.Spec
import Idealize.ShloMosaic.Lib.Pipeline.Value

set_option maxRecDepth 16384

noncomputable section

namespace Cert.KernelIdeal.Hand

open Cert.KernelIdeal Cert.KernelIdeal.Gen Cert.KernelIdeal.PayIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The item table as launched. -/
abbrev table (c : Dev nD) : S100000x128.Idx → EReal := m ((c : Thread nD τ).loc main_arg3)

/-- What the three result arrays are to hold: the scores of each coefficient matrix against the table. -/
def goal1 (c : Dev nD) : S256x100000.Idx → EReal := Cert.Spec.score (coef1 m c) (table m c)
def goal2 (c : Dev nD) : S256x100000.Idx → EReal := Cert.Spec.score (coef2 m c) (table m c)
def goal3 (c : Dev nD) : S256x100000.Idx → EReal := Cert.Spec.score (coef3 m c) (table m c)

/-- Window `w`'s block at point `t`, read off its array as the call finds it: the part inside the array. -/
def blkAt (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-! ## Where the blocks sit -/

theorem geo0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem geo1 : ∀ t : Fin cfg0.N, win0_1.index t (0 : Fin 2) = t.val ∧ win0_1.index t (1 : Fin 2) = 0
    ∧ win0_1.xsize (grid0.coords t) (0 : Fin 2) = (if t.val = 28 then 3232 else 3456) ∧ win0_1.xsize (grid0.coords t) (1 : Fin 2) = 128 :=
  (by decide +kernel : ∀ t : Fin grid0.N, win0_1.index t (0 : Fin 2) = t.val ∧ win0_1.index t (1 : Fin 2) = 0
    ∧ win0_1.xsize (grid0.coords t) (0 : Fin 2) = (if t.val = 28 then 3232 else 3456) ∧ win0_1.xsize (grid0.coords t) (1 : Fin 2) = 128)
theorem geo2 : ∀ t : Fin cfg0.N, win0_2.index t (0 : Fin 2) = 0 ∧ win0_2.index t (1 : Fin 2) = t.val
    ∧ win0_2.xsize (grid0.coords t) (0 : Fin 2) = 256 ∧ win0_2.xsize (grid0.coords t) (1 : Fin 2) = (if t.val = 28 then 3232 else 3456) :=
  (by decide +kernel : ∀ t : Fin grid0.N, win0_2.index t (0 : Fin 2) = 0 ∧ win0_2.index t (1 : Fin 2) = t.val
    ∧ win0_2.xsize (grid0.coords t) (0 : Fin 2) = 256 ∧ win0_2.xsize (grid0.coords t) (1 : Fin 2) = (if t.val = 28 then 3232 else 3456))
theorem geo3 : ∀ t : Fin cfg0.N, win0_3.index t (0 : Fin 2) = 0 ∧ win0_3.index t (1 : Fin 2) = t.val
    ∧ win0_3.xsize (grid0.coords t) (0 : Fin 2) = 256 ∧ win0_3.xsize (grid0.coords t) (1 : Fin 2) = (if t.val = 28 then 3232 else 3456) :=
  (by decide +kernel : ∀ t : Fin grid0.N, win0_3.index t (0 : Fin 2) = 0 ∧ win0_3.index t (1 : Fin 2) = t.val
    ∧ win0_3.xsize (grid0.coords t) (0 : Fin 2) = 256 ∧ win0_3.xsize (grid0.coords t) (1 : Fin 2) = (if t.val = 28 then 3232 else 3456))
theorem geo4 : ∀ t : Fin cfg0.N, win0_4.index t (0 : Fin 2) = 0 ∧ win0_4.index t (1 : Fin 2) = t.val
    ∧ win0_4.xsize (grid0.coords t) (0 : Fin 2) = 256 ∧ win0_4.xsize (grid0.coords t) (1 : Fin 2) = (if t.val = 28 then 3232 else 3456) :=
  (by decide +kernel : ∀ t : Fin grid0.N, win0_4.index t (0 : Fin 2) = 0 ∧ win0_4.index t (1 : Fin 2) = t.val
    ∧ win0_4.xsize (grid0.coords t) (0 : Fin 2) = 256 ∧ win0_4.xsize (grid0.coords t) (1 : Fin 2) = (if t.val = 28 then 3232 else 3456))

/-! ## The blocks read at an entry -/

/-- The stack's window is the whole stack at every point. -/
theorem stack_blk_apply (c : Dev nD) (t : Fin cfg0.N) (p : Fin 768) (k : Fin 128) :
    blkAt m c 0 t (ix2 p k) = (V m c main_v111 : S768x128.Idx → EReal) (ix2 p k) := by
  unfold blkAt
  rw [View.read_apply]
  show V m c main_v111 _ = _
  congr 1
  funext a
  apply Fin.ext
  match a with
  | ⟨0, _⟩ => show win0_0.index t 0 * 768 + 1 * p.val = p.val; rw [(geo0 t).1]; omega
  | ⟨1, _⟩ => show win0_0.index t 1 * 128 + 1 * k.val = k.val; rw [(geo0 t).2]; omega

/-- The tile at point `t`, inside the table: rows 3456 t onwards. -/
theorem tile_apply (c : Dev nD) (t : Fin cfg0.N) (y : (win0_1.xblock (grid0.coords t)).Idx) (i : S100000x128.Idx)
    (h0 : (i 0).val = 3456 * t.val + (y 0).val) (h1 : (i 1).val = (y 1).val) :
    blkAt m c 1 t y = table m c i := by
  unfold blkAt
  rw [View.read_apply]
  show V m c main_arg3 _ = _
  rw [V_main_arg3]
  show table m c _ = table m c i
  congr 1
  funext a
  apply Fin.ext
  match a with
  | ⟨0, _⟩ => show win0_1.index t 0 * 3456 + 1 * (y 0).val = (i 0).val; rw [(geo1 t).1, h0]; omega
  | ⟨1, _⟩ => show win0_1.index t 1 * 128 + 1 * (y 1).val = (i 1).val; rw [(geo1 t).2.1, h1]; omega

/-- The tile buffer after the fetch at point `t`, at a row the fetch filled: the table's row 3456 t + q, whatever the
    buffer held before. -/
theorem tile_fill_apply (c : Dev nD) (t : Fin cfg0.N) (d : S3456x128.Idx → EReal) (q : Fin 3456) (k : Fin 128)
    (hq : q.val < (if t.val = 28 then 3232 else 3456)) :
    win0_1.fill (grid0.coords t) d (blkAt m c 1 t) (ix2 q k)
      = table m c (ix2 (⟨3456 * t.val + q.val, by
          have ht : t.val < 29 := lt_of_lt_of_eq t.isLt N_0
          split_ifs at hq <;> omega⟩ : Fin 100000) k) := by
  obtain ⟨-, -, hs0, hs1⟩ := geo1 t
  let y : (win0_1.xblock (grid0.coords t)).Idx := fun a => match a with
    | ⟨0, _⟩ => ⟨q.val, lt_of_lt_of_eq hq hs0.symm⟩
    | ⟨1, _⟩ => ⟨k.val, lt_of_lt_of_eq k.isLt hs1.symm⟩
  have e : win0_1.xinj (grid0.coords t) y = ix2 q k := funext fun a => by match a with | ⟨0, _⟩ => rfl | ⟨1, _⟩ => rfl
  rw [← e, Window.fill_xinj]
  exact tile_apply m c t y _ rfl rfl

/-- A score matrix read through result window 2's block at point `t`: rows as they are, columns 3456 t further on. -/
theorem goal_blk2 (G : S256x100000.Idx → EReal) (t : Fin cfg0.N) (y : (win0_2.xblock (grid0.coords t)).Idx) (i : S256x100000.Idx)
    (h0 : (i 0).val = (y 0).val) (h1 : (i 1).val = 3456 * t.val + (y 1).val) :
    (win0_2.blk t).view.read (Elt Ideal) G y = G i := by
  rw [View.read_apply]
  show G _ = G i
  congr 1
  funext a
  apply Fin.ext
  match a with
  | ⟨0, _⟩ => show win0_2.index t 0 * 256 + 1 * (y 0).val = (i 0).val; rw [(geo2 t).1, h0]; omega
  | ⟨1, _⟩ => show win0_2.index t 1 * 3456 + 1 * (y 1).val = (i 1).val; rw [(geo2 t).2.1, h1]; omega

/-- A score matrix read through result window 3's block at point `t`: rows as they are, columns 3456 t further on. -/
theorem goal_blk3 (G : S256x100000.Idx → EReal) (t : Fin cfg0.N) (y : (win0_3.xblock (grid0.coords t)).Idx) (i : S256x100000.Idx)
    (h0 : (i 0).val = (y 0).val) (h1 : (i 1).val = 3456 * t.val + (y 1).val) :
    (win0_3.blk t).view.read (Elt Ideal) G y = G i := by
  rw [View.read_apply]
  show G _ = G i
  congr 1
  funext a
  apply Fin.ext
  match a with
  | ⟨0, _⟩ => show win0_3.index t 0 * 256 + 1 * (y 0).val = (i 0).val; rw [(geo3 t).1, h0]; omega
  | ⟨1, _⟩ => show win0_3.index t 1 * 3456 + 1 * (y 1).val = (i 1).val; rw [(geo3 t).2.1, h1]; omega

/-- A score matrix read through result window 4's block at point `t`: rows as they are, columns 3456 t further on. -/
theorem goal_blk4 (G : S256x100000.Idx → EReal) (t : Fin cfg0.N) (y : (win0_4.xblock (grid0.coords t)).Idx) (i : S256x100000.Idx)
    (h0 : (i 0).val = (y 0).val) (h1 : (i 1).val = 3456 * t.val + (y 1).val) :
    (win0_4.blk t).view.read (Elt Ideal) G y = G i := by
  rw [View.read_apply]
  show G _ = G i
  congr 1
  funext a
  apply Fin.ext
  match a with
  | ⟨0, _⟩ => show win0_4.index t 0 * 256 + 1 * (y 0).val = (i 0).val; rw [(geo4 t).1, h0]; omega
  | ⟨1, _⟩ => show win0_4.index t 1 * 3456 + 1 * (y 1).val = (i 1).val; rw [(geo4 t).2.1, h1]; omega

/-! ## What the body leaves in each result buffer -/

/-- THE BODY'S RESULT 1, on the part of its block inside the array: entry (p, q) is the sum over the hidden coordinate of
    row `0 + p` of the stack times row q of the tile — that is, coefficient matrix 1 at row p against item 3456 t + q:
    the specification's block. Whatever the tile buffer holds past the table's end does not enter: column q of the
    product reads row q of the tile only, and q is inside the array. -/
theorem cut_prod1 (c : Dev nD) (t : Fin cfg0.N) (d : S3456x128.Idx → EReal) :
    win0_2.cut (grid0.coords t) (prod1 (F := Ideal) (blkAt m c 0 t) (win0_1.fill (grid0.coords t) d (blkAt m c 1 t)))
      = (win0_2.blk t).view.read (Elt Ideal) (goal1 m c) := by
  funext y
  obtain ⟨-, -, hs0, hs1⟩ := geo2 t
  have hy0 : (y 0).val < 256 := lt_of_lt_of_eq (y 0).isLt hs0
  have hy1 : (y 1).val < (if t.val = 28 then 3232 else 3456) := lt_of_lt_of_eq (y 1).isLt hs1
  have hy1' : (y 1).val < 3456 := by split_ifs at hy1 <;> omega
  have ht : t.val < 29 := lt_of_lt_of_eq t.isLt N_0
  have hcol : 3456 * t.val + (y 1).val < 100000 := by split_ifs at hy1 <;> omega
  show prod1 _ _ (win0_2.xinj (grid0.coords t) y) = _
  have e : win0_2.xinj (grid0.coords t) y = ix2 (⟨(y 0).val, hy0⟩ : Fin 256) (⟨(y 1).val, hy1'⟩ : Fin 3456) :=
    funext fun a => by match a with | ⟨0, _⟩ => rfl | ⟨1, _⟩ => rfl
  rw [e, prod1_eq]
  refine (pay3_apply _ _ _ _).trans ?_
  refine Eq.trans ?_ (goal_blk2 (goal1 m c) t y (ix2 (⟨(y 0).val, hy0⟩ : Fin 256) (⟨3456 * t.val + (y 1).val, hcol⟩ : Fin 100000)) rfl rfl).symm
  unfold goal1
  rw [Cert.Spec.score_apply]
  refine Finset.sum_congr rfl fun k _ => ?_
  congr 1
  · exact (stack_blk_apply m c t _ k).trans (stack_row1 m c _ k)
  · exact tile_fill_apply m c t d _ k hy1

/-- THE BODY'S RESULT 2, on the part of its block inside the array: entry (p, q) is the sum over the hidden coordinate of
    row `256 + p` of the stack times row q of the tile — that is, coefficient matrix 2 at row p against item 3456 t + q:
    the specification's block. Whatever the tile buffer holds past the table's end does not enter: column q of the
    product reads row q of the tile only, and q is inside the array. -/
theorem cut_prod2 (c : Dev nD) (t : Fin cfg0.N) (d : S3456x128.Idx → EReal) :
    win0_3.cut (grid0.coords t) (prod2 (F := Ideal) (blkAt m c 0 t) (win0_1.fill (grid0.coords t) d (blkAt m c 1 t)))
      = (win0_3.blk t).view.read (Elt Ideal) (goal2 m c) := by
  funext y
  obtain ⟨-, -, hs0, hs1⟩ := geo3 t
  have hy0 : (y 0).val < 256 := lt_of_lt_of_eq (y 0).isLt hs0
  have hy1 : (y 1).val < (if t.val = 28 then 3232 else 3456) := lt_of_lt_of_eq (y 1).isLt hs1
  have hy1' : (y 1).val < 3456 := by split_ifs at hy1 <;> omega
  have ht : t.val < 29 := lt_of_lt_of_eq t.isLt N_0
  have hcol : 3456 * t.val + (y 1).val < 100000 := by split_ifs at hy1 <;> omega
  show prod2 _ _ (win0_3.xinj (grid0.coords t) y) = _
  have e : win0_3.xinj (grid0.coords t) y = ix2 (⟨(y 0).val, hy0⟩ : Fin 256) (⟨(y 1).val, hy1'⟩ : Fin 3456) :=
    funext fun a => by match a with | ⟨0, _⟩ => rfl | ⟨1, _⟩ => rfl
  rw [e, prod2_eq]
  refine (pay4_apply _ _ _ _).trans ?_
  refine Eq.trans ?_ (goal_blk3 (goal2 m c) t y (ix2 (⟨(y 0).val, hy0⟩ : Fin 256) (⟨3456 * t.val + (y 1).val, hcol⟩ : Fin 100000)) rfl rfl).symm
  unfold goal2
  rw [Cert.Spec.score_apply]
  refine Finset.sum_congr rfl fun k _ => ?_
  congr 1
  · exact (stack_blk_apply m c t _ k).trans (stack_row2 m c _ k)
  · exact tile_fill_apply m c t d _ k hy1

/-- THE BODY'S RESULT 3, on the part of its block inside the array: entry (p, q) is the sum over the hidden coordinate of
    row `512 + p` of the stack times row q of the tile — that is, coefficient matrix 3 at row p against item 3456 t + q:
    the specification's block. Whatever the tile buffer holds past the table's end does not enter: column q of the
    product reads row q of the tile only, and q is inside the array. -/
theorem cut_prod3 (c : Dev nD) (t : Fin cfg0.N) (d : S3456x128.Idx → EReal) :
    win0_4.cut (grid0.coords t) (prod3 (F := Ideal) (blkAt m c 0 t) (win0_1.fill (grid0.coords t) d (blkAt m c 1 t)))
      = (win0_4.blk t).view.read (Elt Ideal) (goal3 m c) := by
  funext y
  obtain ⟨-, -, hs0, hs1⟩ := geo4 t
  have hy0 : (y 0).val < 256 := lt_of_lt_of_eq (y 0).isLt hs0
  have hy1 : (y 1).val < (if t.val = 28 then 3232 else 3456) := lt_of_lt_of_eq (y 1).isLt hs1
  have hy1' : (y 1).val < 3456 := by split_ifs at hy1 <;> omega
  have ht : t.val < 29 := lt_of_lt_of_eq t.isLt N_0
  have hcol : 3456 * t.val + (y 1).val < 100000 := by split_ifs at hy1 <;> omega
  show prod3 _ _ (win0_4.xinj (grid0.coords t) y) = _
  have e : win0_4.xinj (grid0.coords t) y = ix2 (⟨(y 0).val, hy0⟩ : Fin 256) (⟨(y 1).val, hy1'⟩ : Fin 3456) :=
    funext fun a => by match a with | ⟨0, _⟩ => rfl | ⟨1, _⟩ => rfl
  rw [e, prod3_eq]
  refine (pay5_apply _ _ _ _).trans ?_
  refine Eq.trans ?_ (goal_blk4 (goal3 m c) t y (ix2 (⟨(y 0).val, hy0⟩ : Fin 256) (⟨3456 * t.val + (y 1).val, hcol⟩ : Fin 100000)) rfl rfl).symm
  unfold goal3
  rw [Cert.Spec.score_apply]
  refine Finset.sum_congr rfl fun k _ => ?_
  congr 1
  · exact (stack_blk_apply m c t _ k).trans (stack_row3 m c _ k)
  · exact tile_fill_apply m c t d _ k hy1

end Cert.KernelIdeal.Hand

end
-- ==== Proof.RunIdeal.lean ====
/-
  The run of the kernel at the ideal values with every staging buffer named: the stack's buffer holds the stack, the
  tile's buffer the table's rows of the point (and anything past the table's end), each result buffer the block of the
  specification on the part that is written back. From the run: each result array ends holding the specification
  (every item belongs to exactly the point item / 3456, and that point's block is written back), the arguments unchanged.
-/
import proofs.«114994_j49898930045082_2_alg».proof.Proof.BlocksIdeal

set_option maxRecDepth 16384

noncomputable section

namespace Cert.KernelIdeal.Hand

open Cert.KernelIdeal Cert.KernelIdeal.Gen Cert.KernelIdeal.PayIdeal
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The proof data: the arrays as the call finds them; after the body at point `t` the stack's buffer at the stack, the
    tile's at the table's rows (zero past the table's end: nothing reads that choice), result buffer k at the
    specification's block (zero past the array's end likewise). -/
def datsI (_ : Fin 1) (c : Dev nD) : Dat τ (Elt Ideal) Unit ℕ (UR sig nD τ) ℕ cfg0 c where
  A w := V m c (Pipeline.arrRef spec0 w)
  after w t := match w with
    | ⟨0, _⟩ => blkAt m c 0 t
    | ⟨1, _⟩ => win0_1.fill (grid0.coords t) (fun _ => (0 : EReal)) (blkAt m c 1 t)
    | ⟨2, _⟩ => win0_2.fill (grid0.coords t) (fun _ => (0 : EReal)) ((win0_2.blk t).view.read (Elt Ideal) (goal1 m c))
    | ⟨3, _⟩ => win0_3.fill (grid0.coords t) (fun _ => (0 : EReal)) ((win0_3.blk t).view.read (Elt Ideal) (goal2 m c))
    | ⟨4, _⟩ => win0_4.fill (grid0.coords t) (fun _ => (0 : EReal)) ((win0_4.blk t).view.read (Elt Ideal) (goal3 m c))
  Φ _ := Pipeline.ΦA spec0 c
  q _ := fullShare
  owed _ := 0

theorem A_eqI (c : Dev nD) (w : Fin cfg0.W) : (datsI m 0 c).A w = V m c (Pipeline.arrRef spec0 w) := by
  dsimp only [datsI]

theorem after0 (c : Dev nD) (t : Fin cfg0.N) : (datsI m 0 c).after 0 t = blkAt m c 0 t := by dsimp only [datsI]
theorem after1 (c : Dev nD) (t : Fin cfg0.N) : (datsI m 0 c).after 1 t = win0_1.fill (grid0.coords t) (fun _ => (0 : EReal)) (blkAt m c 1 t) := by dsimp only [datsI]
theorem after2 (c : Dev nD) (t : Fin cfg0.N) : (datsI m 0 c).after 2 t = win0_2.fill (grid0.coords t) (fun _ => (0 : EReal)) ((win0_2.blk t).view.read (Elt Ideal) (goal1 m c)) := by dsimp only [datsI]
theorem after3 (c : Dev nD) (t : Fin cfg0.N) : (datsI m 0 c).after 3 t = win0_3.fill (grid0.coords t) (fun _ => (0 : EReal)) ((win0_3.blk t).view.read (Elt Ideal) (goal2 m c)) := by dsimp only [datsI]
theorem after4 (c : Dev nD) (t : Fin cfg0.N) : (datsI m 0 c).after 4 t = win0_4.fill (grid0.coords t) (fun _ => (0 : EReal)) ((win0_4.blk t).view.read (Elt Ideal) (goal3 m c)) := by dsimp only [datsI]

/-! ## What the body finds -/

/-- The stack's buffer holds the stack at every point (fetched at the first, kept after). -/
theorem before0 (c : Dev nD) (t : Fin cfg0.N) (d) : (datsI m 0 c).before 0 t d = blkAt m c 0 t :=
  ((datsI m 0 c).before_in_eq_fetched 0 rfl (fun _ => rfl) (fun _ _ _ => rfl)
    (fun t => by rw [after0]; unfold Dat.blockOf blkAt; rw [A_eqI]; try rfl) t d).trans
    (by unfold Dat.fetched Dat.blockOf blkAt; rw [A_eqI]; try rfl)
/-- The tile's buffer was just fetched: the table's rows of the point, `d` past the table's end. -/
theorem before1 (c : Dev nD) (t : Fin cfg0.N) (d) :
    (datsI m 0 c).before 1 t d = win0_1.fill (grid0.coords t) d (blkAt m c 1 t) := by
  rw [(datsI m 0 c).before_fetched 1 t (fetch0_1 t) d]
  unfold Dat.fetched Dat.blockOf blkAt
  rw [A_eqI]
/-- A result buffer holds anything: it was written back at the point before. -/
theorem before2 (c : Dev nD) (t : Fin cfg0.N) (d) : (datsI m 0 c).before 2 t d = d :=
  (datsI m 0 c).before_out_reset 2 rfl t (by
    by_cases h0 : t.val = 0
    · exact .inl h0
    · exact .inr ⟨h0, flush0_2 _⟩) d
theorem before3 (c : Dev nD) (t : Fin cfg0.N) (d) : (datsI m 0 c).before 3 t d = d :=
  (datsI m 0 c).before_out_reset 3 rfl t (by
    by_cases h0 : t.val = 0
    · exact .inl h0
    · exact .inr ⟨h0, flush0_3 _⟩) d
theorem before4 (c : Dev nD) (t : Fin cfg0.N) (d) : (datsI m 0 c).before 4 t d = d :=
  (datsI m 0 c).before_out_reset 4 rfl t (by
    by_cases h0 : t.val = 0
    · exact .inl h0
    · exact .inr ⟨h0, flush0_4 _⟩) d

/-! ## The body obligation -/

def preI (c : Dev nD) (t : Fin cfg0.N) : sProp 𝕄 :=
  iprop((datsI m 0 c).Φ t.castSucc ∗ (datsI m 0 c).owesAt () t.castSucc
    ∗ (∃ d, owns (c : Thread nD τ) (st0_0 t) fullShare ((datsI m 0 c).before 0 t d))
    ∗ (∃ d, owns (c : Thread nD τ) (st0_1 t) fullShare ((datsI m 0 c).before 1 t d))
    ∗ (∃ d, owns (c : Thread nD τ) (st0_2 t) fullShare ((datsI m 0 c).before 2 t d))
    ∗ (∃ d, owns (c : Thread nD τ) (st0_3 t) fullShare ((datsI m 0 c).before 3 t d))
    ∗ (∃ d, owns (c : Thread nD τ) (st0_4 t) fullShare ((datsI m 0 c).before 4 t d)))

/-- The stack's window tiles its array: its buffer is handed back whole. The other four may overhang theirs: each is handed
    back stated on the part inside the array. -/
def postI (c : Dev nD) (t : Fin cfg0.N) : sProp 𝕄 :=
  iprop((datsI m 0 c).Φ t.succ ∗ (datsI m 0 c).owesAt () t.succ
    ∗ owns (c : Thread nD τ) (st0_0 t) fullShare ((datsI m 0 c).after 0 t)
    ∗ (∃ d, owns (c : Thread nD τ) (st0_1 t) fullShare (win0_1.fill (grid0.coords t) d (win0_1.cut (grid0.coords t) ((datsI m 0 c).after 1 t))))
    ∗ (∃ d, owns (c : Thread nD τ) (st0_2 t) fullShare (win0_2.fill (grid0.coords t) d (win0_2.cut (grid0.coords t) ((datsI m 0 c).after 2 t))))
    ∗ (∃ d, owns (c : Thread nD τ) (st0_3 t) fullShare (win0_3.fill (grid0.coords t) d (win0_3.cut (grid0.coords t) ((datsI m 0 c).after 3 t))))
    ∗ (∃ d, owns (c : Thread nD τ) (st0_4 t) fullShare (win0_4.fill (grid0.coords t) d (win0_4.cut (grid0.coords t) ((datsI m 0 c).after 4 t)))))

theorem body_at (c : Dev nD) (t : Fin cfg0.N) :
    preI m c t ⊢ wp frame (wpE (defs₀ (F := Ideal)) Variants.none c none) Set.univ (bodyAt0 t) (fun _ => postI m c t) := by
  unfold preI postI bodyAt0
  simp only [before0 m c, before1 m c, before2 m c, before3 m c, before4 m c]
  rw [show (datsI m 0 c).Φ t.succ = (datsI m 0 c).Φ t.castSucc from rfl,
    show (datsI m 0 c).owesAt () t.succ = (datsI m 0 c).owesAt () t.castSucc from rfl,
    after0, after1, after2, after3, after4]
  simp only [Window.cut_fill]
  iintro ⟨HΦ, Ho, ⟨%d0, H0⟩, ⟨%d1, H1⟩, ⟨%d2, H2⟩, ⟨%d3, H3⟩, ⟨%d4, H4⟩⟩
  iapply (body_triple (F := Ideal) c Set.univ _ _ _ _ _ _ _ _ _ _ _ (blkAt m c 0 t) (win0_1.fill (grid0.coords t) d1 (blkAt m c 1 t)) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexists d1; iexact H1
  isplitl [H2]
  · iexists (prod1 (F := Ideal) (blkAt m c 0 t) (win0_1.fill (grid0.coords t) d1 (blkAt m c 1 t)))
    rw [← cut_prod1 m c t d1, Window.fill_cut]
    iexact H2
  isplitl [H3]
  · iexists (prod2 (F := Ideal) (blkAt m c 0 t) (win0_1.fill (grid0.coords t) d1 (blkAt m c 1 t)))
    rw [← cut_prod2 m c t d1, Window.fill_cut]
    iexact H3
  · iexists (prod3 (F := Ideal) (blkAt m c 0 t) (win0_1.fill (grid0.coords t) d1 (blkAt m c 1 t)))
    rw [← cut_prod3 m c t d1, Window.fill_cut]
    iexact H4

theorem body_exact (c : Dev nD) : BodyObligationLoose (datsI m 0 c) (defs₀ (F := Ideal)) Variants.none () Set.univ := fun t => by
  rw [bigSep_W0, bigSep_W0]
  exact body_at m c t

/-! ## The run -/

set_option backward.isDefEq.respectTransparency.types false in
theorem run_exact : θ_run defs (onTc (τ := τ) (main (F := Ideal))) (s₀ m ρ) (Pipeline.FramePost cfgs (datsI m) 0 (V m)) :=
  Pipeline.θ_run_frame cfgs (datsI m) (0 : Fin 1) launch0 defs₀ Variants.none m ρ main
    (hbody := fun c => body_exact m c) (hshare := fun c => (datsI m 0 c).share_full fun _ => rfl)
    (howed := fun _ _ => rfl) (V := V m) (hmain := hmain m Variants.none) (hA := A_eqI m) (hΦ := fun _ _ => rfl)

/-! ## The result arrays -/

/-- What point `t` writes back into result array 1: the specification's block. -/
theorem flushed2 (c : Dev nD) (t : Fin cfg0.N) :
    (datsI m 0 c).flushed 2 t = ((cfg0.win 2).blk t).view.read (Elt Ideal) (goal1 m c) := by
  show (cfg0.win 2).cut (grid0.coords t) ((datsI m 0 c).after 2 t) = _
  rw [after2]
  exact win0_2.cut_fill _ _ _

/-- Every entry of result array 1 is in the block of the point that handles its item: point (item / 3456). -/
theorem cover2 (i : S256x100000.Idx) : ∃ t : Fin cfg0.N, (cfg0.win 2).flush t = true ∧ i ∈ ((cfg0.win 2).blk t).view.set := by
  have hi0 : (i 0).val < 256 := (i 0).isLt
  have hi1 : (i 1).val < 100000 := (i 1).isLt
  have hN : cfg0.N = 29 := N_0
  let t0 : Fin cfg0.N := ⟨(i 1).val / 3456, by rw [hN]; omega⟩
  have ht0 : t0.val = (i 1).val / 3456 := rfl
  refine ⟨t0, flush0_2 t0, ?_⟩
  show i ∈ ((View.whole main_v112_0).slice (win0_2.rect t0)).set
  rw [View.set_slice_whole, Rect.mem_set_unit]
  intro a
  obtain ⟨g0, g1, g2, g3⟩ := geo2 t0
  match a with
  | ⟨0, _⟩ =>
    show win0_2.index t0 0 * 256 ≤ (i 0 : Nat) ∧ (i 0 : Nat) < win0_2.index t0 0 * 256 + win0_2.xsize (grid0.coords t0) 0
    rw [g0, g2]; omega
  | ⟨1, _⟩ =>
    show win0_2.index t0 1 * 3456 ≤ (i 1 : Nat) ∧ (i 1 : Nat) < win0_2.index t0 1 * 3456 + win0_2.xsize (grid0.coords t0) 1
    rw [g1, g3, ht0]; split_ifs <;> omega

/-- So result array 1 ends holding the scores of coefficient matrix 1 against the table. -/
theorem final2 (c : Dev nD) : (datsI m 0 c).arrAt 2 cfg0.N = goal1 m c :=
  (datsI m 0 c).arrAt_eq_of_cover 2 (goal1 m c) (fun t _ => flushed2 m c t) cover2

/-- What point `t` writes back into result array 2: the specification's block. -/
theorem flushed3 (c : Dev nD) (t : Fin cfg0.N) :
    (datsI m 0 c).flushed 3 t = ((cfg0.win 3).blk t).view.read (Elt Ideal) (goal2 m c) := by
  show (cfg0.win 3).cut (grid0.coords t) ((datsI m 0 c).after 3 t) = _
  rw [after3]
  exact win0_3.cut_fill _ _ _

/-- Every entry of result array 2 is in the block of the point that handles its item: point (item / 3456). -/
theorem cover3 (i : S256x100000.Idx) : ∃ t : Fin cfg0.N, (cfg0.win 3).flush t = true ∧ i ∈ ((cfg0.win 3).blk t).view.set := by
  have hi0 : (i 0).val < 256 := (i 0).isLt
  have hi1 : (i 1).val < 100000 := (i 1).isLt
  have hN : cfg0.N = 29 := N_0
  let t0 : Fin cfg0.N := ⟨(i 1).val / 3456, by rw [hN]; omega⟩
  have ht0 : t0.val = (i 1).val / 3456 := rfl
  refine ⟨t0, flush0_3 t0, ?_⟩
  show i ∈ ((View.whole main_v112_1).slice (win0_3.rect t0)).set
  rw [View.set_slice_whole, Rect.mem_set_unit]
  intro a
  obtain ⟨g0, g1, g2, g3⟩ := geo3 t0
  match a with
  | ⟨0, _⟩ =>
    show win0_3.index t0 0 * 256 ≤ (i 0 : Nat) ∧ (i 0 : Nat) < win0_3.index t0 0 * 256 + win0_3.xsize (grid0.coords t0) 0
    rw [g0, g2]; omega
  | ⟨1, _⟩ =>
    show win0_3.index t0 1 * 3456 ≤ (i 1 : Nat) ∧ (i 1 : Nat) < win0_3.index t0 1 * 3456 + win0_3.xsize (grid0.coords t0) 1
    rw [g1, g3, ht0]; split_ifs <;> omega

/-- So result array 2 ends holding the scores of coefficient matrix 2 against the table. -/
theorem final3 (c : Dev nD) : (datsI m 0 c).arrAt 3 cfg0.N = goal2 m c :=
  (datsI m 0 c).arrAt_eq_of_cover 3 (goal2 m c) (fun t _ => flushed3 m c t) cover3

/-- What point `t` writes back into result array 3: the specification's block. -/
theorem flushed4 (c : Dev nD) (t : Fin cfg0.N) :
    (datsI m 0 c).flushed 4 t = ((cfg0.win 4).blk t).view.read (Elt Ideal) (goal3 m c) := by
  show (cfg0.win 4).cut (grid0.coords t) ((datsI m 0 c).after 4 t) = _
  rw [after4]
  exact win0_4.cut_fill _ _ _

/-- Every entry of result array 3 is in the block of the point that handles its item: point (item / 3456). -/
theorem cover4 (i : S256x100000.Idx) : ∃ t : Fin cfg0.N, (cfg0.win 4).flush t = true ∧ i ∈ ((cfg0.win 4).blk t).view.set := by
  have hi0 : (i 0).val < 256 := (i 0).isLt
  have hi1 : (i 1).val < 100000 := (i 1).isLt
  have hN : cfg0.N = 29 := N_0
  let t0 : Fin cfg0.N := ⟨(i 1).val / 3456, by rw [hN]; omega⟩
  have ht0 : t0.val = (i 1).val / 3456 := rfl
  refine ⟨t0, flush0_4 t0, ?_⟩
  show i ∈ ((View.whole main_v112_2).slice (win0_4.rect t0)).set
  rw [View.set_slice_whole, Rect.mem_set_unit]
  intro a
  obtain ⟨g0, g1, g2, g3⟩ := geo4 t0
  match a with
  | ⟨0, _⟩ =>
    show win0_4.index t0 0 * 256 ≤ (i 0 : Nat) ∧ (i 0 : Nat) < win0_4.index t0 0 * 256 + win0_4.xsize (grid0.coords t0) 0
    rw [g0, g2]; omega
  | ⟨1, _⟩ =>
    show win0_4.index t0 1 * 3456 ≤ (i 1 : Nat) ∧ (i 1 : Nat) < win0_4.index t0 1 * 3456 + win0_4.xsize (grid0.coords t0) 1
    rw [g1, g3, ht0]; split_ifs <;> omega

/-- So result array 3 ends holding the scores of coefficient matrix 3 against the table. -/
theorem final4 (c : Dev nD) : (datsI m 0 c).arrAt 4 cfg0.N = goal3 m c :=
  (datsI m 0 c).arrAt_eq_of_cover 4 (goal3 m c) (fun t _ => flushed4 m c t) cover4

/-- The run, read: each result array at its specification, the fifteen arguments as launched. -/
theorem run_value : θ_run defs (onTc (τ := τ) (main (F := Ideal))) ⟨m, fun _ => 0, ρ⟩ (fun r => ∀ c : Dev nD,
      r.2.mem ((c.tc : Thread nD τ).loc main_v112_0) = goal1 m c
      ∧ r.2.mem ((c.tc : Thread nD τ).loc main_v112_1) = goal2 m c
      ∧ r.2.mem ((c.tc : Thread nD τ).loc main_v112_2) = goal3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 2).trans (final2 m c), ((h c).1 3).trans (final3 m c), ((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((datsI m 0 c).arrAt_in 1 rfl _).trans ((A_eqI m c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_exact m ρ)

end Cert.KernelIdeal.Hand

end
-- ==== Proof.RefSide.lean ====
/-
  The reference's last step, at the ideal values: the host's product of a 256 x 128 coefficient matrix with the
  transposed 100000 x 128 item table has, at (s, j), the sum over the hidden coordinate k of coefficient (s, k) times
  table entry (j, k) — the specification's score. (The host's product is a plain sum over the one contracted axis, and
  the transposed table at (k, j) is the table at (j, k).)
-/
import proofs.«114994_j49898930045082_2_alg».proof.Proof.Gen.ReferenceIdeal
import proofs.«114994_j49898930045082_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.RefSide

open Cert.ReferenceIdeal Cert.ReferenceIdeal.Gen Idealize.ShloMosaic Idealize.ShloMosaic.ValueIdx

/-- Where the product reads its operands. -/
theorem lhs0 (i : S256x100000.Idx) (q : dot_S256x128_S128x100000_S256x100000_1_0_0_1_n_n.contr.Idx) : (dot_S256x128_S128x100000_S256x100000_1_0_0_1_n_n.lhsIdx i q 0).val = (i 0).val := by
  unfold DotDims.lhsIdx
  rw [dif_neg (show ¬(0 : Fin S256x128.rank) ∈ dot_S256x128_S128x100000_S256x100000_1_0_0_1_n_n.lhsBatch by decide), dif_pos (show (0 : Fin S256x128.rank) ∈ dot_S256x128_S128x100000_S256x100000_1_0_0_1_n_n.lhsNonContracting by decide)]
  rfl
theorem lhs1 (i : S256x100000.Idx) (q : dot_S256x128_S128x100000_S256x100000_1_0_0_1_n_n.contr.Idx) : (dot_S256x128_S128x100000_S256x100000_1_0_0_1_n_n.lhsIdx i q 1).val = (q ⟨0, by decide⟩).val :=
  dot_S256x128_S128x100000_S256x100000_1_0_0_1_n_n.lhsIdx_val_of_single rfl i q
theorem rhs0 (i : S256x100000.Idx) (q : dot_S256x128_S128x100000_S256x100000_1_0_0_1_n_n.contr.Idx) : (dot_S256x128_S128x100000_S256x100000_1_0_0_1_n_n.rhsIdx i q 0).val = (q ⟨0, by decide⟩).val :=
  dot_S256x128_S128x100000_S256x100000_1_0_0_1_n_n.rhsIdx_val_of_single rfl i q
theorem rhs1 (i : S256x100000.Idx) (q : dot_S256x128_S128x100000_S256x100000_1_0_0_1_n_n.contr.Idx) : (dot_S256x128_S128x100000_S256x100000_1_0_0_1_n_n.rhsIdx i q 1).val = (i 1).val := by
  unfold DotDims.rhsIdx
  rw [dif_neg (show ¬(1 : Fin S128x100000.rank) ∈ dot_S256x128_S128x100000_S256x100000_1_0_0_1_n_n.rhsBatch by decide), dif_pos (show (1 : Fin S128x100000.rank) ∈ dot_S256x128_S128x100000_S256x100000_1_0_0_1_n_n.rhsNonContracting by decide)]
  rfl

/-- The product with the transposed table is the score. -/
theorem ref_score (cf : FVec Ideal S256x128 .f32) (e : FVec Ideal S100000x128 .f32) :
    Host.dotGeneral (F := Ideal) dot_S256x128_S128x100000_S256x100000_1_0_0_1_n_n none cf (transpose S128x100000 [1, 0] e transposes_S100000x128_S128x100000_1_0)
      = Cert.Spec.score cf e := by
  funext i
  simp only [Host.dotGeneral]
  rw [Ideal.dotGeneral_apply, ← Equiv.sum_comp (contrEquiv1 dot_S256x128_S128x100000_S256x100000_1_0_0_1_n_n 128 rfl rfl).symm]
  show _ = ∑ k : Fin 128, (cf (ix2 (⟨(i 0).val, (i 0).isLt⟩ : Fin 256) k) : EReal) * (e (ix2 (⟨(i 1).val, (i 1).isLt⟩ : Fin 100000) k) : EReal)
  refine Finset.sum_congr rfl fun k _ => ?_
  have hk := contrEquiv1_symm_val dot_S256x128_S128x100000_S256x100000_1_0_0_1_n_n 128 rfl rfl k
  have el : dot_S256x128_S128x100000_S256x100000_1_0_0_1_n_n.lhsIdx i ((contrEquiv1 dot_S256x128_S128x100000_S256x100000_1_0_0_1_n_n 128 rfl rfl).symm k) = ix2 (⟨(i 0).val, (i 0).isLt⟩ : Fin 256) k :=
    funext fun a => Fin.ext (by
      match a with
      | ⟨0, _⟩ => exact lhs0 _ _
      | ⟨1, _⟩ => exact (lhs1 _ _).trans hk)
  have er : dot_S256x128_S128x100000_S256x100000_1_0_0_1_n_n.rhsIdx i ((contrEquiv1 dot_S256x128_S128x100000_S256x100000_1_0_0_1_n_n 128 rfl rfl).symm k) = ix2 k (⟨(i 1).val, (i 1).isLt⟩ : Fin 100000) :=
    funext fun a => Fin.ext (by
      match a with
      | ⟨0, _⟩ => exact (rhs0 _ _).trans hk
      | ⟨1, _⟩ => exact rhs1 _ _)
  rw [el, er]
  congr 1
  exact transpose_apply [1, 0] e transposes_S100000x128_S128x100000_1_0 (ix2 k (⟨(i 1).val, (i 1).isLt⟩ : Fin 100000))
    (ix2 (⟨(i 1).val, (i 1).isLt⟩ : Fin 100000) k) (fun b => match b with | ⟨0, _⟩ => rfl | ⟨1, _⟩ => rfl)

end Cert.RefSide

end
-- ==== Proof.RefRun.lean ====
import proofs.«114994_j49898930045082_2_alg».proof.Proof.Gen.ReferenceIdeal
import Idealize.ShloMosaic.Lib.StableHlo.Run
import Idealize.ShloMosaic.PureOps.Ideal.Laws
import Idealize.ShloMosaic.Lib.Pipeline.Value
import Idealize.ShloMosaic.Lib.ValueIdx

/-
  The reference is a straight line of 136 host operations. Its run: every weakly fair execution ends with each buffer
  holding the fold of the operations' results over the launch contents. None of the fifteen arguments is the result
  buffer of an operation, so they end as launched; and each of the three results is, by its own operation, the product
  of a 256 x 128 coefficient matrix with the transposed item table.
-/
set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The reference's @main, operation by operation. -/
abbrev ops : List (HloOp τ sig (Elt F)) :=
  [ nullary main_c (constantI S_ 32 0#32),
    unary main_c main_v0 (broadcastInDim S5120 ![] bcast_S_S5120 : (⟨S_, .i32⟩ : BufTy).Contents (Elt F) → (⟨S5120, .i32⟩ : BufTy).Contents (Elt F)),
    binary main_arg0 main_v0 main_v1 (cmpi .slt : (⟨S5120, .i32⟩ : BufTy).Contents (Elt F) → (⟨S5120, .i32⟩ : BufTy).Contents (Elt F) → (⟨S5120, .i1⟩ : BufTy).Contents (Elt F)),
    nullary main_c_0 (constantI S_ 32 100000#32),
    unary main_c_0 main_v2 (broadcastInDim S5120 ![] bcast_S_S5120 : (⟨S_, .i32⟩ : BufTy).Contents (Elt F) → (⟨S5120, .i32⟩ : BufTy).Contents (Elt F)),
    binary main_arg0 main_v2 main_v3 (addi : (⟨S5120, .i32⟩ : BufTy).Contents (Elt F) → (⟨S5120, .i32⟩ : BufTy).Contents (Elt F) → (⟨S5120, .i32⟩ : BufTy).Contents (Elt F)),
    ternary main_v1 main_v3 main_arg0 main_v4 (select : (⟨S5120, .i1⟩ : BufTy).Contents (Elt F) → (⟨S5120, .i32⟩ : BufTy).Contents (Elt F) → (⟨S5120, .i32⟩ : BufTy).Contents (Elt F) → (⟨S5120, .i32⟩ : BufTy).Contents (Elt F)),
    unary main_v4 main_v5 (broadcastInDim S5120x1 ![0] bcast_S5120_S5120x1_0 : (⟨S5120, .i32⟩ : BufTy).Contents (Elt F) → (⟨S5120x1, .i32⟩ : BufTy).Contents (Elt F)),
    binary main_arg3 main_v5 main_v6 ((fun x i => Host.gather gather_S100000x128_S5120x1_S5120x128_1_0_n_n_0_1_1128 x i) : (⟨S100000x128, .f32⟩ : BufTy).Contents (Elt F) → (⟨S5120x1, .i32⟩ : BufTy).Contents (Elt F) → (⟨S5120x128, .f32⟩ : BufTy).Contents (Elt F)),
    unary main_arg1 main_v7 ((extractStridedSlice S1x10240 ![0, 0] · slices_S2x10240_S1x10240_0_0) : (⟨S2x10240, .i32⟩ : BufTy).Contents (Elt F) → (⟨S1x10240, .i32⟩ : BufTy).Contents (Elt F)),
    reshape main_v7 main_v8 rfl shapeCasts_S1x10240_S10240,
    unary main_arg1 main_v9 ((extractStridedSlice S1x10240 ![1, 0] · slices_S2x10240_S1x10240_1_0) : (⟨S2x10240, .i32⟩ : BufTy).Contents (Elt F) → (⟨S1x10240, .i32⟩ : BufTy).Contents (Elt F)),
    reshape main_v9 main_v10 rfl shapeCasts_S1x10240_S10240,
    nullary main_c_1 (constantI S_ 32 0#32),
    unary main_c_1 main_v11 (broadcastInDim S10240 ![] bcast_S_S10240 : (⟨S_, .i32⟩ : BufTy).Contents (Elt F) → (⟨S10240, .i32⟩ : BufTy).Contents (Elt F)),
    binary main_v8 main_v11 main_v12 (cmpi .slt : (⟨S10240, .i32⟩ : BufTy).Contents (Elt F) → (⟨S10240, .i32⟩ : BufTy).Contents (Elt F) → (⟨S10240, .i1⟩ : BufTy).Contents (Elt F)),
    nullary main_c_2 (constantI S_ 32 5120#32),
    unary main_c_2 main_v13 (broadcastInDim S10240 ![] bcast_S_S10240 : (⟨S_, .i32⟩ : BufTy).Contents (Elt F) → (⟨S10240, .i32⟩ : BufTy).Contents (Elt F)),
    binary main_v8 main_v13 main_v14 (addi : (⟨S10240, .i32⟩ : BufTy).Contents (Elt F) → (⟨S10240, .i32⟩ : BufTy).Contents (Elt F) → (⟨S10240, .i32⟩ : BufTy).Contents (Elt F)),
    ternary main_v12 main_v14 main_v8 main_v15 (select : (⟨S10240, .i1⟩ : BufTy).Contents (Elt F) → (⟨S10240, .i32⟩ : BufTy).Contents (Elt F) → (⟨S10240, .i32⟩ : BufTy).Contents (Elt F) → (⟨S10240, .i32⟩ : BufTy).Contents (Elt F)),
    unary main_v15 main_v16 (broadcastInDim S10240x1 ![0] bcast_S10240_S10240x1_0 : (⟨S10240, .i32⟩ : BufTy).Contents (Elt F) → (⟨S10240x1, .i32⟩ : BufTy).Contents (Elt F)),
    binary main_v6 main_v16 main_v17 ((fun x i => Host.gather gather_S5120x128_S10240x1_S10240x128_1_0_n_n_0_1_1128 x i) : (⟨S5120x128, .f32⟩ : BufTy).Contents (Elt F) → (⟨S10240x1, .i32⟩ : BufTy).Contents (Elt F) → (⟨S10240x128, .f32⟩ : BufTy).Contents (Elt F)),
    nullary main_cst (constant S_ .f32 0x00000000#32),
    unary main_cst main_v18 (broadcastInDim S5120x128 ![] bcast_S_S5120x128 : (⟨S_, .f32⟩ : BufTy).Contents (Elt F) → (⟨S5120x128, .f32⟩ : BufTy).Contents (Elt F)),
    unary main_v10 main_v19 (broadcastInDim S10240x1 ![0] bcast_S10240_S10240x1_0 : (⟨S10240, .i32⟩ : BufTy).Contents (Elt F) → (⟨S10240x1, .i32⟩ : BufTy).Contents (Elt F)),
    ternary main_v18 main_v19 main_v17 main_v20 ((fun x i u => Host.scatterAdd scatter_S5120x128_S10240x1_S10240x128_1_0_0_1 x i u) : (⟨S5120x128, .f32⟩ : BufTy).Contents (Elt F) → (⟨S10240x1, .i32⟩ : BufTy).Contents (Elt F) → (⟨S10240x128, .f32⟩ : BufTy).Contents (Elt F) → (⟨S5120x128, .f32⟩ : BufTy).Contents (Elt F)),
    unary main_arg4 main_v21 ((transpose S128x384 [1, 0] · transposes_S384x128_S128x384_1_0) : (⟨S384x128, .f32⟩ : BufTy).Contents (Elt F) → (⟨S128x384, .f32⟩ : BufTy).Contents (Elt F)),
    binary main_v20 main_v21 main_v22 ((fun l r => Host.dotGeneral dot_S5120x128_S128x384_S5120x384_1_0_0_1_n_n none l r) : (⟨S5120x128, .f32⟩ : BufTy).Contents (Elt F) → (⟨S128x384, .f32⟩ : BufTy).Contents (Elt F) → (⟨S5120x384, .f32⟩ : BufTy).Contents (Elt F)),
    unary main_arg5 main_v23 ((transpose S128x384 [1, 0] · transposes_S384x128_S128x384_1_0) : (⟨S384x128, .f32⟩ : BufTy).Contents (Elt F) → (⟨S128x384, .f32⟩ : BufTy).Contents (Elt F)),
    binary main_v6 main_v23 main_v24 ((fun l r => Host.dotGeneral dot_S5120x128_S128x384_S5120x384_1_0_0_1_n_n none l r) : (⟨S5120x128, .f32⟩ : BufTy).Contents (Elt F) → (⟨S128x384, .f32⟩ : BufTy).Contents (Elt F) → (⟨S5120x384, .f32⟩ : BufTy).Contents (Elt F)),
    unary main_v22 main_v25 ((extractStridedSlice S5120x128 ![0, 0] · slices_S5120x384_S5120x128_0_0) : (⟨S5120x384, .f32⟩ : BufTy).Contents (Elt F) → (⟨S5120x128, .f32⟩ : BufTy).Contents (Elt F)),
    unary main_v22 main_v26 ((extractStridedSlice S5120x128 ![0, 128] · slices_S5120x384_S5120x128_0_128) : (⟨S5120x384, .f32⟩ : BufTy).Contents (Elt F) → (⟨S5120x128, .f32⟩ : BufTy).Contents (Elt F)),
    unary main_v22 main_v27 ((extractStridedSlice S5120x128 ![0, 256] · slices_S5120x384_S5120x128_0_256) : (⟨S5120x384, .f32⟩ : BufTy).Contents (Elt F) → (⟨S5120x128, .f32⟩ : BufTy).Contents (Elt F)),
    unary main_v24 main_v28 ((extractStridedSlice S5120x128 ![0, 0] · slices_S5120x384_S5120x128_0_0) : (⟨S5120x384, .f32⟩ : BufTy).Contents (Elt F) → (⟨S5120x128, .f32⟩ : BufTy).Contents (Elt F)),
    unary main_v24 main_v29 ((extractStridedSlice S5120x128 ![0, 128] · slices_S5120x384_S5120x128_0_128) : (⟨S5120x384, .f32⟩ : BufTy).Contents (Elt F) → (⟨S5120x128, .f32⟩ : BufTy).Contents (Elt F)),
    unary main_v24 main_v30 ((extractStridedSlice S5120x128 ![0, 256] · slices_S5120x384_S5120x128_0_256) : (⟨S5120x384, .f32⟩ : BufTy).Contents (Elt F) → (⟨S5120x128, .f32⟩ : BufTy).Contents (Elt F)),
    binary main_v25 main_v28 main_v31 (addf : (⟨S5120x128, .f32⟩ : BufTy).Contents (Elt F) → (⟨S5120x128, .f32⟩ : BufTy).Contents (Elt F) → (⟨S5120x128, .f32⟩ : BufTy).Contents (Elt F)),
    unary main_v31 main_v32 (Host.negf : (⟨S5120x128, .f32⟩ : BufTy).Contents (Elt F) → (⟨S5120x128, .f32⟩ : BufTy).Contents (Elt F)),
    unary main_v32 main_v33 (Host.exp : (⟨S5120x128, .f32⟩ : BufTy).Contents (Elt F) → (⟨S5120x128, .f32⟩ : BufTy).Contents (Elt F)),
    nullary main_cst_3 (constant S_ .f32 0x3F800000#32),
    unary main_cst_3 main_v34 (broadcastInDim S5120x128 ![] bcast_S_S5120x128 : (⟨S_, .f32⟩ : BufTy).Contents (Elt F) → (⟨S5120x128, .f32⟩ : BufTy).Contents (Elt F)),
    binary main_v34 main_v33 main_v35 (addf : (⟨S5120x128, .f32⟩ : BufTy).Contents (Elt F) → (⟨S5120x128, .f32⟩ : BufTy).Contents (Elt F) → (⟨S5120x128, .f32⟩ : BufTy).Contents (Elt F)),
    nullary main_cst_4 (constant S_ .f32 0x3F800000#32),
    unary main_cst_4 main_v36 (broadcastInDim S5120x128 ![] bcast_S_S5120x128 : (⟨S_, .f32⟩ : BufTy).Contents (Elt F) → (⟨S5120x128, .f32⟩ : BufTy).Contents (Elt F)),
    binary main_v36 main_v35 main_v37 (Host.divf : (⟨S5120x128, .f32⟩ : BufTy).Contents (Elt F) → (⟨S5120x128, .f32⟩ : BufTy).Contents (Elt F) → (⟨S5120x128, .f32⟩ : BufTy).Contents (Elt F)),
    binary main_v26 main_v29 main_v38 (addf : (⟨S5120x128, .f32⟩ : BufTy).Contents (Elt F) → (⟨S5120x128, .f32⟩ : BufTy).Contents (Elt F) → (⟨S5120x128, .f32⟩ : BufTy).Contents (Elt F)),
    unary main_v38 main_v39 (Host.negf : (⟨S5120x128, .f32⟩ : BufTy).Contents (Elt F) → (⟨S5120x128, .f32⟩ : BufTy).Contents (Elt F)),
    unary main_v39 main_v40 (Host.exp : (⟨S5120x128, .f32⟩ : BufTy).Contents (Elt F) → (⟨S5120x128, .f32⟩ : BufTy).Contents (Elt F)),
    nullary main_cst_5 (constant S_ .f32 0x3F800000#32),
    unary main_cst_5 main_v41 (broadcastInDim S5120x128 ![] bcast_S_S5120x128 : (⟨S_, .f32⟩ : BufTy).Contents (Elt F) → (⟨S5120x128, .f32⟩ : BufTy).Contents (Elt F)),
    binary main_v41 main_v40 main_v42 (addf : (⟨S5120x128, .f32⟩ : BufTy).Contents (Elt F) → (⟨S5120x128, .f32⟩ : BufTy).Contents (Elt F) → (⟨S5120x128, .f32⟩ : BufTy).Contents (Elt F)),
    nullary main_cst_6 (constant S_ .f32 0x3F800000#32),
    unary main_cst_6 main_v43 (broadcastInDim S5120x128 ![] bcast_S_S5120x128 : (⟨S_, .f32⟩ : BufTy).Contents (Elt F) → (⟨S5120x128, .f32⟩ : BufTy).Contents (Elt F)),
    binary main_v43 main_v42 main_v44 (Host.divf : (⟨S5120x128, .f32⟩ : BufTy).Contents (Elt F) → (⟨S5120x128, .f32⟩ : BufTy).Contents (Elt F) → (⟨S5120x128, .f32⟩ : BufTy).Contents (Elt F)),
    binary main_v37 main_v30 main_v45 (mulf : (⟨S5120x128, .f32⟩ : BufTy).Contents (Elt F) → (⟨S5120x128, .f32⟩ : BufTy).Contents (Elt F) → (⟨S5120x128, .f32⟩ : BufTy).Contents (Elt F)),
    binary main_v27 main_v45 main_v46 (addf : (⟨S5120x128, .f32⟩ : BufTy).Contents (Elt F) → (⟨S5120x128, .f32⟩ : BufTy).Contents (Elt F) → (⟨S5120x128, .f32⟩ : BufTy).Contents (Elt F)),
    unary main_v46 main_v47 (Host.tanh : (⟨S5120x128, .f32⟩ : BufTy).Contents (Elt F) → (⟨S5120x128, .f32⟩ : BufTy).Contents (Elt F)),
    nullary main_cst_7 (constant S_ .f32 0x3F800000#32),
    unary main_cst_7 main_v48 (broadcastInDim S5120x128 ![] bcast_S_S5120x128 : (⟨S_, .f32⟩ : BufTy).Contents (Elt F) → (⟨S5120x128, .f32⟩ : BufTy).Contents (Elt F)),
    binary main_v48 main_v44 main_v49 (subf : (⟨S5120x128, .f32⟩ : BufTy).Contents (Elt F) → (⟨S5120x128, .f32⟩ : BufTy).Contents (Elt F) → (⟨S5120x128, .f32⟩ : BufTy).Contents (Elt F)),
    binary main_v49 main_v47 main_v50 (mulf : (⟨S5120x128, .f32⟩ : BufTy).Contents (Elt F) → (⟨S5120x128, .f32⟩ : BufTy).Contents (Elt F) → (⟨S5120x128, .f32⟩ : BufTy).Contents (Elt F)),
    binary main_v44 main_v6 main_v51 (mulf : (⟨S5120x128, .f32⟩ : BufTy).Contents (Elt F) → (⟨S5120x128, .f32⟩ : BufTy).Contents (Elt F) → (⟨S5120x128, .f32⟩ : BufTy).Contents (Elt F)),
    binary main_v50 main_v51 main_v52 (addf : (⟨S5120x128, .f32⟩ : BufTy).Contents (Elt F) → (⟨S5120x128, .f32⟩ : BufTy).Contents (Elt F) → (⟨S5120x128, .f32⟩ : BufTy).Contents (Elt F)),
    nullary main_v53 (iotaInDim S5120 32 0),
    nullary main_c_8 (constantI S_ 32 2147483648#32),
    unary main_c_8 main_v54 (broadcastInDim S256 ![] bcast_S_S256 : (⟨S_, .i32⟩ : BufTy).Contents (Elt F) → (⟨S256, .i32⟩ : BufTy).Contents (Elt F)),
    unary main_arg2 main_v55 (broadcastInDim S5120x1 ![0] bcast_S5120_S5120x1_0 : (⟨S5120, .i32⟩ : BufTy).Contents (Elt F) → (⟨S5120x1, .i32⟩ : BufTy).Contents (Elt F)),
    ternary main_v54 main_v55 main_v53 main_v56 ((fun x i u => Host.scatter scatter_S256_S5120x1_S5120_n_0_0_1 IntOp.maxsi x i u) : (⟨S256, .i32⟩ : BufTy).Contents (Elt F) → (⟨S5120x1, .i32⟩ : BufTy).Contents (Elt F) → (⟨S5120, .i32⟩ : BufTy).Contents (Elt F) → (⟨S256, .i32⟩ : BufTy).Contents (Elt F)),
    nullary main_c_9 (constantI S_ 32 0#32),
    unary main_c_9 main_v57 (broadcastInDim S256 ![] bcast_S_S256 : (⟨S_, .i32⟩ : BufTy).Contents (Elt F) → (⟨S256, .i32⟩ : BufTy).Contents (Elt F)),
    binary main_v56 main_v57 main_v58 (cmpi .slt : (⟨S256, .i32⟩ : BufTy).Contents (Elt F) → (⟨S256, .i32⟩ : BufTy).Contents (Elt F) → (⟨S256, .i1⟩ : BufTy).Contents (Elt F)),
    nullary main_c_10 (constantI S_ 32 5120#32),
    unary main_c_10 main_v59 (broadcastInDim S256 ![] bcast_S_S256 : (⟨S_, .i32⟩ : BufTy).Contents (Elt F) → (⟨S256, .i32⟩ : BufTy).Contents (Elt F)),
    binary main_v56 main_v59 main_v60 (addi : (⟨S256, .i32⟩ : BufTy).Contents (Elt F) → (⟨S256, .i32⟩ : BufTy).Contents (Elt F) → (⟨S256, .i32⟩ : BufTy).Contents (Elt F)),
    ternary main_v58 main_v60 main_v56 main_v61 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v61 main_v62 (broadcastInDim S256x1 ![0] bcast_S256_S256x1_0 : (⟨S256, .i32⟩ : BufTy).Contents (Elt F) → (⟨S256x1, .i32⟩ : BufTy).Contents (Elt F)),
    binary main_v52 main_v62 main_v63 ((fun x i => Host.gather gather_S5120x128_S256x1_S256x128_1_0_n_n_0_1_1128 x i) : (⟨S5120x128, .f32⟩ : BufTy).Contents (Elt F) → (⟨S256x1, .i32⟩ : BufTy).Contents (Elt F) → (⟨S256x128, .f32⟩ : BufTy).Contents (Elt F)),
    nullary main_c_11 (constantI S_ 32 0#32),
    unary main_c_11 main_v64 (broadcastInDim S5120 ![] bcast_S_S5120 : (⟨S_, .i32⟩ : BufTy).Contents (Elt F) → (⟨S5120, .i32⟩ : BufTy).Contents (Elt F)),
    binary main_arg2 main_v64 main_v65 (cmpi .slt : (⟨S5120, .i32⟩ : BufTy).Contents (Elt F) → (⟨S5120, .i32⟩ : BufTy).Contents (Elt F) → (⟨S5120, .i1⟩ : BufTy).Contents (Elt F)),
    nullary main_c_12 (constantI S_ 32 256#32),
    unary main_c_12 main_v66 (broadcastInDim S5120 ![] bcast_S_S5120 : (⟨S_, .i32⟩ : BufTy).Contents (Elt F) → (⟨S5120, .i32⟩ : BufTy).Contents (Elt F)),
    binary main_arg2 main_v66 main_v67 (addi : (⟨S5120, .i32⟩ : BufTy).Contents (Elt F) → (⟨S5120, .i32⟩ : BufTy).Contents (Elt F) → (⟨S5120, .i32⟩ : BufTy).Contents (Elt F)),
    ternary main_v65 main_v67 main_arg2 main_v68 (select : (⟨S5120, .i1⟩ : BufTy).Contents (Elt F) → (⟨S5120, .i32⟩ : BufTy).Contents (Elt F) → (⟨S5120, .i32⟩ : BufTy).Contents (Elt F) → (⟨S5120, .i32⟩ : BufTy).Contents (Elt F)),
    unary main_v68 main_v69 (broadcastInDim S5120x1 ![0] bcast_S5120_S5120x1_0 : (⟨S5120, .i32⟩ : BufTy).Contents (Elt F) → (⟨S5120x1, .i32⟩ : BufTy).Contents (Elt F)),
    binary main_v63 main_v69 main_v70 ((fun x i => Host.gather gather_S256x128_S5120x1_S5120x128_1_0_n_n_0_1_1128 x i) : (⟨S256x128, .f32⟩ : BufTy).Contents (Elt F) → (⟨S5120x1, .i32⟩ : BufTy).Contents (Elt F) → (⟨S5120x128, .f32⟩ : BufTy).Contents (Elt F)),
    unary main_arg6 main_v71 ((transpose S128x128 [1, 0] · transposes_S128x128_S128x128_1_0) : (⟨S128x128, .f32⟩ : BufTy).Contents (Elt F) → (⟨S128x128, .f32⟩ : BufTy).Contents (Elt F)),
    binary main_v70 main_v71 main_v72 ((fun l r => Host.dotGeneral dot_S5120x128_S128x128_S5120x128_1_0_0_1_n_n none l r) : (⟨S5120x128, .f32⟩ : BufTy).Contents (Elt F) → (⟨S128x128, .f32⟩ : BufTy).Contents (Elt F) → (⟨S5120x128, .f32⟩ : BufTy).Contents (Elt F)),
    unary main_arg7 main_v73 ((transpose S128x128 [1, 0] · transposes_S128x128_S128x128_1_0) : (⟨S128x128, .f32⟩ : BufTy).Contents (Elt F) → (⟨S128x128, .f32⟩ : BufTy).Contents (Elt F)),
    binary main_v52 main_v73 main_v74 ((fun l r => Host.dotGeneral dot_S5120x128_S128x128_S5120x128_1_0_0_1_n_n none l r) : (⟨S5120x128, .f32⟩ : BufTy).Contents (Elt F) → (⟨S128x128, .f32⟩ : BufTy).Contents (Elt F) → (⟨S5120x128, .f32⟩ : BufTy).Contents (Elt F)),
    unary main_arg8 main_v75 (broadcastInDim S1x128 ![1] bcast_S128_S1x128_1 : (⟨S128, .f32⟩ : BufTy).Contents (Elt F) → (⟨S1x128, .f32⟩ : BufTy).Contents (Elt F)),
    unary main_v75 main_v76 (broadcastInDim S5120x128 ![0, 1] bcast_S1x128_S5120x128_0_1 : (⟨S1x128, .f32⟩ : BufTy).Contents (Elt F) → (⟨S5120x128, .f32⟩ : BufTy).Contents (Elt F)),
    binary main_v74 main_v76 main_v77 (addf : (⟨S5120x128, .f32⟩ : BufTy).Contents (Elt F) → (⟨S5120x128, .f32⟩ : BufTy).Contents (Elt F) → (⟨S5120x128, .f32⟩ : BufTy).Contents (Elt F)),
    binary main_v72 main_v77 main_v78 (addf : (⟨S5120x128, .f32⟩ : BufTy).Contents (Elt F) → (⟨S5120x128, .f32⟩ : BufTy).Contents (Elt F) → (⟨S5120x128, .f32⟩ : BufTy).Contents (Elt F)),
    unary main_v78 main_v79 (Host.negf : (⟨S5120x128, .f32⟩ : BufTy).Contents (Elt F) → (⟨S5120x128, .f32⟩ : BufTy).Contents (Elt F)),
    unary main_v79 main_v80 (Host.exp : (⟨S5120x128, .f32⟩ : BufTy).Contents (Elt F) → (⟨S5120x128, .f32⟩ : BufTy).Contents (Elt F)),
    nullary main_cst_13 (constant S_ .f32 0x3F800000#32),
    unary main_cst_13 main_v81 (broadcastInDim S5120x128 ![] bcast_S_S5120x128 : (⟨S_, .f32⟩ : BufTy).Contents (Elt F) → (⟨S5120x128, .f32⟩ : BufTy).Contents (Elt F)),
    binary main_v81 main_v80 main_v82 (addf : (⟨S5120x128, .f32⟩ : BufTy).Contents (Elt F) → (⟨S5120x128, .f32⟩ : BufTy).Contents (Elt F) → (⟨S5120x128, .f32⟩ : BufTy).Contents (Elt F)),
    nullary main_cst_14 (constant S_ .f32 0x3F800000#32),
    unary main_cst_14 main_v83 (broadcastInDim S5120x128 ![] bcast_S_S5120x128 : (⟨S_, .f32⟩ : BufTy).Contents (Elt F) → (⟨S5120x128, .f32⟩ : BufTy).Contents (Elt F)),
    binary main_v83 main_v82 main_v84 (Host.divf : (⟨S5120x128, .f32⟩ : BufTy).Contents (Elt F) → (⟨S5120x128, .f32⟩ : BufTy).Contents (Elt F) → (⟨S5120x128, .f32⟩ : BufTy).Contents (Elt F)),
    unary main_arg9 main_v85 ((transpose S128x1 [1, 0] · transposes_S1x128_S128x1_1_0) : (⟨S1x128, .f32⟩ : BufTy).Contents (Elt F) → (⟨S128x1, .f32⟩ : BufTy).Contents (Elt F)),
    binary main_v84 main_v85 main_v86 ((fun l r => Host.dotGeneral dot_S5120x128_S128x1_S5120x1_1_0_0_1_n_n none l r) : (⟨S5120x128, .f32⟩ : BufTy).Contents (Elt F) → (⟨S128x1, .f32⟩ : BufTy).Contents (Elt F) → (⟨S5120x1, .f32⟩ : BufTy).Contents (Elt F)),
    unary main_arg10 main_v87 (broadcastInDim S1x1 ![1] bcast_S1_S1x1_1 : (⟨S1, .f32⟩ : BufTy).Contents (Elt F) → (⟨S1x1, .f32⟩ : BufTy).Contents (Elt F)),
    unary main_v87 main_v88 (broadcastInDim S5120x1 ![0, 1] bcast_S1x1_S5120x1_0_1 : (⟨S1x1, .f32⟩ : BufTy).Contents (Elt F) → (⟨S5120x1, .f32⟩ : BufTy).Contents (Elt F)),
    binary main_v86 main_v88 main_v89 (addf : (⟨S5120x1, .f32⟩ : BufTy).Contents (Elt F) → (⟨S5120x1, .f32⟩ : BufTy).Contents (Elt F) → (⟨S5120x1, .f32⟩ : BufTy).Contents (Elt F)),
    unary main_v89 main_v90 (broadcastInDim S5120x128 ![0, 1] bcast_S5120x1_S5120x128_0_1 : (⟨S5120x1, .f32⟩ : BufTy).Contents (Elt F) → (⟨S5120x128, .f32⟩ : BufTy).Contents (Elt F)),
    binary main_v90 main_v52 main_v91 (mulf : (⟨S5120x128, .f32⟩ : BufTy).Contents (Elt F) → (⟨S5120x128, .f32⟩ : BufTy).Contents (Elt F) → (⟨S5120x128, .f32⟩ : BufTy).Contents (Elt F)),
    nullary main_cst_15 (constant S_ .f32 0x00000000#32),
    unary main_cst_15 main_v92 (broadcastInDim S256x128 ![] bcast_S_S256x128 : (⟨S_, .f32⟩ : BufTy).Contents (Elt F) → (⟨S256x128, .f32⟩ : BufTy).Contents (Elt F)),
    unary main_arg2 main_v93 (broadcastInDim S5120x1 ![0] bcast_S5120_S5120x1_0 : (⟨S5120, .i32⟩ : BufTy).Contents (Elt F) → (⟨S5120x1, .i32⟩ : BufTy).Contents (Elt F)),
    ternary main_v92 main_v93 main_v91 main_v94 ((fun x i u => Host.scatterAdd scatter_S256x128_S5120x1_S5120x128_1_0_0_1 x i u) : (⟨S256x128, .f32⟩ : BufTy).Contents (Elt F) → (⟨S5120x1, .i32⟩ : BufTy).Contents (Elt F) → (⟨S5120x128, .f32⟩ : BufTy).Contents (Elt F) → (⟨S256x128, .f32⟩ : BufTy).Contents (Elt F)),
    binary main_v63 main_v94 main_v95 ((fun a b => concatenate S256x256 1 [⟨S256x128, a⟩, ⟨S256x128, b⟩] concatenates_S256x128_S256x128_S256x256_d1) : (⟨S256x128, .f32⟩ : BufTy).Contents (Elt F) → (⟨S256x128, .f32⟩ : BufTy).Contents (Elt F) → (⟨S256x256, .f32⟩ : BufTy).Contents (Elt F)),
    unary main_arg11 main_v96 ((transpose S256x128 [1, 0] · transposes_S128x256_S256x128_1_0) : (⟨S128x256, .f32⟩ : BufTy).Contents (Elt F) → (⟨S256x128, .f32⟩ : BufTy).Contents (Elt F)),
    binary main_v95 main_v96 main_v97 ((fun l r => Host.dotGeneral dot_S256x256_S256x128_S256x128_1_0_0_1_n_n none l r) : (⟨S256x256, .f32⟩ : BufTy).Contents (Elt F) → (⟨S256x128, .f32⟩ : BufTy).Contents (Elt F) → (⟨S256x128, .f32⟩ : BufTy).Contents (Elt F)),
    unary main_v97 main_v98 (Host.negf : (⟨S256x128, .f32⟩ : BufTy).Contents (Elt F) → (⟨S256x128, .f32⟩ : BufTy).Contents (Elt F)),
    unary main_v98 main_v99 (Host.exp : (⟨S256x128, .f32⟩ : BufTy).Contents (Elt F) → (⟨S256x128, .f32⟩ : BufTy).Contents (Elt F)),
    nullary main_cst_16 (constant S_ .f32 0x3F800000#32),
    unary main_cst_16 main_v100 (broadcastInDim S256x128 ![] bcast_S_S256x128 : (⟨S_, .f32⟩ : BufTy).Contents (Elt F) → (⟨S256x128, .f32⟩ : BufTy).Contents (Elt F)),
    binary main_v100 main_v99 main_v101 (addf : (⟨S256x128, .f32⟩ : BufTy).Contents (Elt F) → (⟨S256x128, .f32⟩ : BufTy).Contents (Elt F) → (⟨S256x128, .f32⟩ : BufTy).Contents (Elt F)),
    nullary main_cst_17 (constant S_ .f32 0x3F800000#32),
    unary main_cst_17 main_v102 (broadcastInDim S256x128 ![] bcast_S_S256x128 : (⟨S_, .f32⟩ : BufTy).Contents (Elt F) → (⟨S256x128, .f32⟩ : BufTy).Contents (Elt F)),
    binary main_v102 main_v101 main_v103 (Host.divf : (⟨S256x128, .f32⟩ : BufTy).Contents (Elt F) → (⟨S256x128, .f32⟩ : BufTy).Contents (Elt F) → (⟨S256x128, .f32⟩ : BufTy).Contents (Elt F)),
    unary main_arg12 main_v104 ((transpose S128x128 [1, 0] · transposes_S128x128_S128x128_1_0) : (⟨S128x128, .f32⟩ : BufTy).Contents (Elt F) → (⟨S128x128, .f32⟩ : BufTy).Contents (Elt F)),
    binary main_v103 main_v104 main_v105 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    unary main_arg3 main_v106 ((transpose S128x100000 [1, 0] · transposes_S100000x128_S128x100000_1_0) : (⟨S100000x128, .f32⟩ : BufTy).Contents (Elt F) → (⟨S128x100000, .f32⟩ : BufTy).Contents (Elt F)),
    binary main_v105 main_v106 main_v107 ((fun l r => Host.dotGeneral dot_S256x128_S128x100000_S256x100000_1_0_0_1_n_n none l r) : (⟨S256x128, .f32⟩ : BufTy).Contents (Elt F) → (⟨S128x100000, .f32⟩ : BufTy).Contents (Elt F) → (⟨S256x100000, .f32⟩ : BufTy).Contents (Elt F)),
    unary main_arg13 main_v108 ((transpose S128x128 [1, 0] · transposes_S128x128_S128x128_1_0) : (⟨S128x128, .f32⟩ : BufTy).Contents (Elt F) → (⟨S128x128, .f32⟩ : BufTy).Contents (Elt F)),
    binary main_v103 main_v108 main_v109 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    unary main_arg3 main_v110 ((transpose S128x100000 [1, 0] · transposes_S100000x128_S128x100000_1_0) : (⟨S100000x128, .f32⟩ : BufTy).Contents (Elt F) → (⟨S128x100000, .f32⟩ : BufTy).Contents (Elt F)),
    binary main_v109 main_v110 main_v111 ((fun l r => Host.dotGeneral dot_S256x128_S128x100000_S256x100000_1_0_0_1_n_n none l r) : (⟨S256x128, .f32⟩ : BufTy).Contents (Elt F) → (⟨S128x100000, .f32⟩ : BufTy).Contents (Elt F) → (⟨S256x100000, .f32⟩ : BufTy).Contents (Elt F)),
    unary main_arg14 main_v112 ((transpose S128x128 [1, 0] · transposes_S128x128_S128x128_1_0) : (⟨S128x128, .f32⟩ : BufTy).Contents (Elt F) → (⟨S128x128, .f32⟩ : BufTy).Contents (Elt F)),
    binary main_v103 main_v112 main_v113 ((fun l r => Host.dotGeneral dot_S256x128_S128x128_S256x128_1_0_0_1_n_n none l r) : (⟨S256x128, .f32⟩ : BufTy).Contents (Elt F) → (⟨S128x128, .f32⟩ : BufTy).Contents (Elt F) → (⟨S256x128, .f32⟩ : BufTy).Contents (Elt F)),
    unary main_arg3 main_v114 ((transpose S128x100000 [1, 0] · transposes_S100000x128_S128x100000_1_0) : (⟨S100000x128, .f32⟩ : BufTy).Contents (Elt F) → (⟨S128x100000, .f32⟩ : BufTy).Contents (Elt F)),
    binary main_v113 main_v114 main_v115 ((fun l r => Host.dotGeneral dot_S256x128_S128x100000_S256x100000_1_0_0_1_n_n none l r) : (⟨S256x128, .f32⟩ : BufTy).Contents (Elt F) → (⟨S128x100000, .f32⟩ : BufTy).Contents (Elt F) → (⟨S256x100000, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., nullary_bufs_sub .., unary_bufs_sub .., binary_bufs_sub .., binary_bufs_sub .., binary_bufs_sub .., binary_bufs_sub .., nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., nullary_bufs_sub .., unary_bufs_sub .., unary_bufs_sub .., ternary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub .., unary_bufs_sub .., binary_bufs_sub ..⟩

variable (m : (ℓ : Loc nD τ sig) → Buf (Elt F) ℓ) (ρ : Dev nD → PrngReg)

/-- What buffer `b` holds after the 136 operations. -/
abbrev W (c : Dev nD) (b : Ref sig .tc) : Buf (Elt F) ((c.tc : Thread nD τ).loc b) :=
  after ops (launchContents m c) (Proc.devRef .tc b)

/-- The run. -/
theorem run_all : θ_run defs (onTc (τ := τ) (main (F := F))) ⟨m, fun _ => 0, ρ⟩ fun r =>
    ∀ (c : Dev nD) (b : Ref sig .tc), r.2.mem ((c.tc : Thread nD τ).loc b) = W m c b :=
  run_seq scopedRefs_eq scopedSems_eq defs main (fun _ => ops) main_eq (fun _ => ops_sub) m ρ

/-- Argument 0 is the result buffer of no operation. -/
theorem W_main_arg0 (c : Dev nD) : W m c main_arg0 = m ((c.tc : Thread nD τ).loc main_arg0) :=
  after_of_forall_not_mem (b := Proc.devRef .tc main_arg0) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 1 is the result buffer of no operation. -/
theorem W_main_arg1 (c : Dev nD) : W m c main_arg1 = m ((c.tc : Thread nD τ).loc main_arg1) :=
  after_of_forall_not_mem (b := Proc.devRef .tc main_arg1) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 2 is the result buffer of no operation. -/
theorem W_main_arg2 (c : Dev nD) : W m c main_arg2 = m ((c.tc : Thread nD τ).loc main_arg2) :=
  after_of_forall_not_mem (b := Proc.devRef .tc main_arg2) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 3 is the result buffer of no operation. -/
theorem W_main_arg3 (c : Dev nD) : W m c main_arg3 = m ((c.tc : Thread nD τ).loc main_arg3) :=
  after_of_forall_not_mem (b := Proc.devRef .tc main_arg3) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 4 is the result buffer of no operation. -/
theorem W_main_arg4 (c : Dev nD) : W m c main_arg4 = m ((c.tc : Thread nD τ).loc main_arg4) :=
  after_of_forall_not_mem (b := Proc.devRef .tc main_arg4) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 5 is the result buffer of no operation. -/
theorem W_main_arg5 (c : Dev nD) : W m c main_arg5 = m ((c.tc : Thread nD τ).loc main_arg5) :=
  after_of_forall_not_mem (b := Proc.devRef .tc main_arg5) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 6 is the result buffer of no operation. -/
theorem W_main_arg6 (c : Dev nD) : W m c main_arg6 = m ((c.tc : Thread nD τ).loc main_arg6) :=
  after_of_forall_not_mem (b := Proc.devRef .tc main_arg6) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 7 is the result buffer of no operation. -/
theorem W_main_arg7 (c : Dev nD) : W m c main_arg7 = m ((c.tc : Thread nD τ).loc main_arg7) :=
  after_of_forall_not_mem (b := Proc.devRef .tc main_arg7) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 8 is the result buffer of no operation. -/
theorem W_main_arg8 (c : Dev nD) : W m c main_arg8 = m ((c.tc : Thread nD τ).loc main_arg8) :=
  after_of_forall_not_mem (b := Proc.devRef .tc main_arg8) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 9 is the result buffer of no operation. -/
theorem W_main_arg9 (c : Dev nD) : W m c main_arg9 = m ((c.tc : Thread nD τ).loc main_arg9) :=
  after_of_forall_not_mem (b := Proc.devRef .tc main_arg9) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 10 is the result buffer of no operation. -/
theorem W_main_arg10 (c : Dev nD) : W m c main_arg10 = m ((c.tc : Thread nD τ).loc main_arg10) :=
  after_of_forall_not_mem (b := Proc.devRef .tc main_arg10) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 11 is the result buffer of no operation. -/
theorem W_main_arg11 (c : Dev nD) : W m c main_arg11 = m ((c.tc : Thread nD τ).loc main_arg11) :=
  after_of_forall_not_mem (b := Proc.devRef .tc main_arg11) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 12 is the result buffer of no operation. -/
theorem W_main_arg12 (c : Dev nD) : W m c main_arg12 = m ((c.tc : Thread nD τ).loc main_arg12) :=
  after_of_forall_not_mem (b := Proc.devRef .tc main_arg12) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 13 is the result buffer of no operation. -/
theorem W_main_arg13 (c : Dev nD) : W m c main_arg13 = m ((c.tc : Thread nD τ).loc main_arg13) :=
  after_of_forall_not_mem (b := Proc.devRef .tc main_arg13) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))
/-- Argument 14 is the result buffer of no operation. -/
theorem W_main_arg14 (c : Dev nD) : W m c main_arg14 = m ((c.tc : Thread nD τ).loc main_arg14) :=
  after_of_forall_not_mem (b := Proc.devRef .tc main_arg14) _ _ (List.forall_iff_forall_mem.mp (by
    simp only [ops, List.Forall, nullary_writes, unary_writes, binary_writes, ternary_writes, quaternary_writes, reshape_writes, nary_writes, Finset.mem_singleton]
    repeat' apply And.intro
    all_goals exact devRef_ne_of_ne (by decide)))

set_option maxHeartbeats 8000000 in
/-- Result 0: the product of a coefficient matrix (host result v105) with the transposed item table. -/
theorem W_res0 (c : Dev nD) :
    W m c main_v107 = Host.dotGeneral dot_S256x128_S128x100000_S256x100000_1_0_0_1_n_n none (W m c main_v105)
      (transpose S128x100000 [1, 0] (W m c main_arg3) transposes_S100000x128_S128x100000_1_0) := by
  dsimp only [W, ops]
  after_results_simp <;> rfl
set_option maxHeartbeats 8000000 in
/-- Result 1: the product of a coefficient matrix (host result v109) with the transposed item table. -/
theorem W_res1 (c : Dev nD) :
    W m c main_v111 = Host.dotGeneral dot_S256x128_S128x100000_S256x100000_1_0_0_1_n_n none (W m c main_v109)
      (transpose S128x100000 [1, 0] (W m c main_arg3) transposes_S100000x128_S128x100000_1_0) := by
  dsimp only [W, ops]
  after_results_simp <;> rfl
set_option maxHeartbeats 8000000 in
/-- Result 2: the product of a coefficient matrix (host result v113) with the transposed item table. -/
theorem W_res2 (c : Dev nD) :
    W m c main_v115 = Host.dotGeneral dot_S256x128_S128x100000_S256x100000_1_0_0_1_n_n none (W m c main_v113)
      (transpose S128x100000 [1, 0] (W m c main_arg3) transposes_S100000x128_S128x100000_1_0) := by
  dsimp only [W, ops]
  after_results_simp <;> rfl

end Cert.ReferenceIdeal.Hand

end
-- ==== Proof.LibCat.lean ====
/-
  A two-piece concatenation as a plain binary function of its pieces, so that a rewriting pass can reach the pieces (they
  sit, in the printed form, inside a list of shape-indexed pairs), with its reading at an index: along the concatenated
  axis, coordinates below the first piece's extent read the first piece, the others read the second piece at the
  coordinate less that extent. And the evaluation of a line of host operations at a buffer as one rewriting pass that
  also folds such concatenations.
-/
import Idealize.ShloMosaic.PureOps.Ideal
import Idealize.ShloMosaic.Lib.Pipeline.Value
import Idealize.ShloMosaic.Lib.ValueIdx
import Idealize.ShloMosaic.Lib.StableHlo.Run

noncomputable section

namespace Cert.Cat

open Idealize.ShloMosaic Idealize.ShloMosaic.ValueIdx

variable {α : Type}

/-- The concatenation of two pieces along axis `a`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_fold (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Two `[R, A]` and `[R, B]` pieces side by side: a column below `A` reads the first piece. -/
theorem cat2_cols_left {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin A) :
    cat2 ⟨2, ![R, A + B]⟩ 1 ⟨2, ![R, A]⟩ ⟨2, ![R, B]⟩ h x₁ x₂ (ix2 r (Fin.castAdd B k)) = x₁ (ix2 r k) :=
  concatenate_pair_apply_left 1 x₁ x₂ h (ix2 r (Fin.castAdd B k)) rfl (ix2 r k) (fun b => by
    match b with
    | ⟨0, _⟩ => rfl
    | ⟨1, _⟩ => rfl)

/-- … and a column `A + k` reads the second piece at column `k`. -/
theorem cat2_cols_right {R A B : Nat} (h : Shape.Concatenates [(⟨2, ![R, A]⟩ : Shape), ⟨2, ![R, B]⟩] ⟨2, ![R, A + B]⟩ 1)
    (x₁ : (⟨2, ![R, A]⟩ : Shape).Idx → α) (x₂ : (⟨2, ![R, B]⟩ : Shape).Idx → α) (r : Fin R) (k : Fin B) :
    cat2 ⟨2, ![R, A + B]⟩ 1 ⟨2, ![R, A]⟩ ⟨2, ![R, B]⟩ h x₁ x₂ (ix2 r (Fin.natAdd A k)) = x₂ (ix2 r k) :=
  concatenate_pair_apply_right 1 x₁ x₂ h (ix2 r (Fin.natAdd A k)) rfl rfl (ix2 r k) (fun b hb => by
    match b with
    | ⟨0, _⟩ => rfl
    | ⟨1, _⟩ => exact absurd rfl hb) (by show k.val + A = A + k.val; omega)

end Cert.Cat

open Idealize.ShloMosaic.StableHlo in
/-- A line's fold at a buffer: the library's one-pass evaluation, alternated with folding two-piece concatenations into
    binary functions (whose pieces the next pass then reaches), until neither makes progress. -/
macro "eval_line" : tactic =>
  `(tactic| repeat (first | after_results_simp | simp only [Cert.Cat.cat2_fold]))

end
-- ==== Proof.Link.lean ====
/-
  Both programs compute their three coefficient matrices from the fifteen argument arrays by the same host operations
  (the embedding lookup, the message passing, the gated update, the last node of each session, the attention pooling,
  the sigmoid and the product with one weight matrix). Read back as one term of the arguments each, the reference's
  term and the kernel's are the same term once the arguments agree.
-/
import proofs.«114994_j49898930045082_2_alg».proof.Proof.CoefIdeal
import proofs.«114994_j49898930045082_2_alg».proof.Proof.RefRun
import proofs.«114994_j49898930045082_2_alg».proof.Proof.LibCat

set_option maxRecDepth 16384

noncomputable section

namespace Cert.Link

open Idealize.ShloMosaic Idealize.ShloMosaic.TcCoe Idealize.ShloMosaic.StableHlo Idealize.SL.Sem
open Cert.Nary3

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 16000000 in
/-- Coefficient matrix 1: the reference's host result v105 is the kernel's, operation for operation. -/
theorem link1 (c : Dev Cert.KernelIdeal.nD)
    (h0 : launchContents m' c (Proc.tc.devRef Cert.ReferenceIdeal.main_arg0) = m (c, Proc.tc.devRef Cert.KernelIdeal.main_arg0))
    (h1 : launchContents m' c (Proc.tc.devRef Cert.ReferenceIdeal.main_arg1) = m (c, Proc.tc.devRef Cert.KernelIdeal.main_arg1))
    (h2 : launchContents m' c (Proc.tc.devRef Cert.ReferenceIdeal.main_arg2) = m (c, Proc.tc.devRef Cert.KernelIdeal.main_arg2))
    (h3 : launchContents m' c (Proc.tc.devRef Cert.ReferenceIdeal.main_arg3) = m (c, Proc.tc.devRef Cert.KernelIdeal.main_arg3))
    (h4 : launchContents m' c (Proc.tc.devRef Cert.ReferenceIdeal.main_arg4) = m (c, Proc.tc.devRef Cert.KernelIdeal.main_arg4))
    (h5 : launchContents m' c (Proc.tc.devRef Cert.ReferenceIdeal.main_arg5) = m (c, Proc.tc.devRef Cert.KernelIdeal.main_arg5))
    (h6 : launchContents m' c (Proc.tc.devRef Cert.ReferenceIdeal.main_arg6) = m (c, Proc.tc.devRef Cert.KernelIdeal.main_arg6))
    (h7 : launchContents m' c (Proc.tc.devRef Cert.ReferenceIdeal.main_arg7) = m (c, Proc.tc.devRef Cert.KernelIdeal.main_arg7))
    (h8 : launchContents m' c (Proc.tc.devRef Cert.ReferenceIdeal.main_arg8) = m (c, Proc.tc.devRef Cert.KernelIdeal.main_arg8))
    (h9 : launchContents m' c (Proc.tc.devRef Cert.ReferenceIdeal.main_arg9) = m (c, Proc.tc.devRef Cert.KernelIdeal.main_arg9))
    (h10 : launchContents m' c (Proc.tc.devRef Cert.ReferenceIdeal.main_arg10) = m (c, Proc.tc.devRef Cert.KernelIdeal.main_arg10))
    (h11 : launchContents m' c (Proc.tc.devRef Cert.ReferenceIdeal.main_arg11) = m (c, Proc.tc.devRef Cert.KernelIdeal.main_arg11))
    (h12 : launchContents m' c (Proc.tc.devRef Cert.ReferenceIdeal.main_arg12) = m (c, Proc.tc.devRef Cert.KernelIdeal.main_arg12)) :
    Cert.ReferenceIdeal.Hand.W m' c Cert.ReferenceIdeal.main_v105 = Cert.KernelIdeal.Hand.coef1 m c := by
  unfold Cert.KernelIdeal.Hand.coef1
  dsimp only [Cert.KernelIdeal.Hand.V, Cert.KernelIdeal.Gen.hostOps0, Cert.ReferenceIdeal.Hand.W, Cert.ReferenceIdeal.Hand.ops]
  repeat (first | after_results_simp3 | simp only [Cert.Cat.cat2_fold])
  rw [h0, h1, h2, h3, h4, h5, h6, h7, h8, h9, h10, h11, h12]
  rfl

set_option maxHeartbeats 16000000 in
/-- Coefficient matrix 2: the reference's host result v109 is the kernel's, operation for operation. -/
theorem link2 (c : Dev Cert.KernelIdeal.nD)
    (h0 : launchContents m' c (Proc.tc.devRef Cert.ReferenceIdeal.main_arg0) = m (c, Proc.tc.devRef Cert.KernelIdeal.main_arg0))
    (h1 : launchContents m' c (Proc.tc.devRef Cert.ReferenceIdeal.main_arg1) = m (c, Proc.tc.devRef Cert.KernelIdeal.main_arg1))
    (h2 : launchContents m' c (Proc.tc.devRef Cert.ReferenceIdeal.main_arg2) = m (c, Proc.tc.devRef Cert.KernelIdeal.main_arg2))
    (h3 : launchContents m' c (Proc.tc.devRef Cert.ReferenceIdeal.main_arg3) = m (c, Proc.tc.devRef Cert.KernelIdeal.main_arg3))
    (h4 : launchContents m' c (Proc.tc.devRef Cert.ReferenceIdeal.main_arg4) = m (c, Proc.tc.devRef Cert.KernelIdeal.main_arg4))
    (h5 : launchContents m' c (Proc.tc.devRef Cert.ReferenceIdeal.main_arg5) = m (c, Proc.tc.devRef Cert.KernelIdeal.main_arg5))
    (h6 : launchContents m' c (Proc.tc.devRef Cert.ReferenceIdeal.main_arg6) = m (c, Proc.tc.devRef Cert.KernelIdeal.main_arg6))
    (h7 : launchContents m' c (Proc.tc.devRef Cert.ReferenceIdeal.main_arg7) = m (c, Proc.tc.devRef Cert.KernelIdeal.main_arg7))
    (h8 : launchContents m' c (Proc.tc.devRef Cert.ReferenceIdeal.main_arg8) = m (c, Proc.tc.devRef Cert.KernelIdeal.main_arg8))
    (h9 : launchContents m' c (Proc.tc.devRef Cert.ReferenceIdeal.main_arg9) = m (c, Proc.tc.devRef Cert.KernelIdeal.main_arg9))
    (h10 : launchContents m' c (Proc.tc.devRef Cert.ReferenceIdeal.main_arg10) = m (c, Proc.tc.devRef Cert.KernelIdeal.main_arg10))
    (h11 : launchContents m' c (Proc.tc.devRef Cert.ReferenceIdeal.main_arg11) = m (c, Proc.tc.devRef Cert.KernelIdeal.main_arg11))
    (h13 : launchContents m' c (Proc.tc.devRef Cert.ReferenceIdeal.main_arg13) = m (c, Proc.tc.devRef Cert.KernelIdeal.main_arg13)) :
    Cert.ReferenceIdeal.Hand.W m' c Cert.ReferenceIdeal.main_v109 = Cert.KernelIdeal.Hand.coef2 m c := by
  unfold Cert.KernelIdeal.Hand.coef2
  dsimp only [Cert.KernelIdeal.Hand.V, Cert.KernelIdeal.Gen.hostOps0, Cert.ReferenceIdeal.Hand.W, Cert.ReferenceIdeal.Hand.ops]
  repeat (first | after_results_simp3 | simp only [Cert.Cat.cat2_fold])
  rw [h0, h1, h2, h3, h4, h5, h6, h7, h8, h9, h10, h11, h13]
  rfl

set_option maxHeartbeats 16000000 in
/-- Coefficient matrix 3: the reference's host result v113 is the kernel's, operation for operation. -/
theorem link3 (c : Dev Cert.KernelIdeal.nD)
    (h0 : launchContents m' c (Proc.tc.devRef Cert.ReferenceIdeal.main_arg0) = m (c, Proc.tc.devRef Cert.KernelIdeal.main_arg0))
    (h1 : launchContents m' c (Proc.tc.devRef Cert.ReferenceIdeal.main_arg1) = m (c, Proc.tc.devRef Cert.KernelIdeal.main_arg1))
    (h2 : launchContents m' c (Proc.tc.devRef Cert.ReferenceIdeal.main_arg2) = m (c, Proc.tc.devRef Cert.KernelIdeal.main_arg2))
    (h3 : launchContents m' c (Proc.tc.devRef Cert.ReferenceIdeal.main_arg3) = m (c, Proc.tc.devRef Cert.KernelIdeal.main_arg3))
    (h4 : launchContents m' c (Proc.tc.devRef Cert.ReferenceIdeal.main_arg4) = m (c, Proc.tc.devRef Cert.KernelIdeal.main_arg4))
    (h5 : launchContents m' c (Proc.tc.devRef Cert.ReferenceIdeal.main_arg5) = m (c, Proc.tc.devRef Cert.KernelIdeal.main_arg5))
    (h6 : launchContents m' c (Proc.tc.devRef Cert.ReferenceIdeal.main_arg6) = m (c, Proc.tc.devRef Cert.KernelIdeal.main_arg6))
    (h7 : launchContents m' c (Proc.tc.devRef Cert.ReferenceIdeal.main_arg7) = m (c, Proc.tc.devRef Cert.KernelIdeal.main_arg7))
    (h8 : launchContents m' c (Proc.tc.devRef Cert.ReferenceIdeal.main_arg8) = m (c, Proc.tc.devRef Cert.KernelIdeal.main_arg8))
    (h9 : launchContents m' c (Proc.tc.devRef Cert.ReferenceIdeal.main_arg9) = m (c, Proc.tc.devRef Cert.KernelIdeal.main_arg9))
    (h10 : launchContents m' c (Proc.tc.devRef Cert.ReferenceIdeal.main_arg10) = m (c, Proc.tc.devRef Cert.KernelIdeal.main_arg10))
    (h11 : launchContents m' c (Proc.tc.devRef Cert.ReferenceIdeal.main_arg11) = m (c, Proc.tc.devRef Cert.KernelIdeal.main_arg11))
    (h14 : launchContents m' c (Proc.tc.devRef Cert.ReferenceIdeal.main_arg14) = m (c, Proc.tc.devRef Cert.KernelIdeal.main_arg14)) :
    Cert.ReferenceIdeal.Hand.W m' c Cert.ReferenceIdeal.main_v113 = Cert.KernelIdeal.Hand.coef3 m c := by
  unfold Cert.KernelIdeal.Hand.coef3
  dsimp only [Cert.KernelIdeal.Hand.V, Cert.KernelIdeal.Gen.hostOps0, Cert.ReferenceIdeal.Hand.W, Cert.ReferenceIdeal.Hand.ops]
  repeat (first | after_results_simp3 | simp only [Cert.Cat.cat2_fold])
  rw [h0, h1, h2, h3, h4, h5, h6, h7, h8, h9, h10, h11, h14]
  rfl

end Cert.Link

end
-- ==== Proof.lean ====
/-
  The claim. Both programs compute, from the same fifteen arrays and by the same 126 host operations, three 256 x 128
  coefficient matrices c_1, c_2, c_3 (the session representation times three weight matrices); the reference then
  multiplies each with the transposed item table, and the kernel stacks them, converts the stack to a narrower float
  format (the identity at the ideal values) and lets a pallas_call over 29 tiles of 3456 items compute the same three
  products tile by tile on the matrix unit. At the ideal values both give, for session s and item j, the sum over the
  128 hidden coordinates of c_k(s, d) * table(j, d): the same sum, term for term, so no finiteness is used. The last
  tile hangs over the table's end; the entries it would add lie outside the result arrays and are not written back.
  The kernel's frame at the bit level is proved without naming what the result buffers hold; at the ideal values the
  frame is read off the run that names them. The ideal pass rewrote nothing, so the preservation conjunct is trivial.
-/
import proofs.«114994_j49898930045082_2_alg».proof.Defs
import proofs.«114994_j49898930045082_2_alg».proof.Proof.FrameKernel
import proofs.«114994_j49898930045082_2_alg».proof.Proof.RunIdeal
import proofs.«114994_j49898930045082_2_alg».proof.Proof.RefSide
import proofs.«114994_j49898930045082_2_alg».proof.Proof.RefRun
import proofs.«114994_j49898930045082_2_alg».proof.Proof.Link
import proofs.«114994_j49898930045082_2_alg».proof.Proof.Gen.Kernel
import proofs.«114994_j49898930045082_2_alg».proof.Proof.Gen.KernelIdeal
import proofs.«114994_j49898930045082_2_alg».proof.Proof.Gen.ReferenceIdeal
import proofs.«114994_j49898930045082_2_alg».proof.Proof.Gen.Pre_finite_inputs
import Idealize.ShloMosaic.Adequacy
import Idealize.ShloMosaic.Init

set_option maxRecDepth 16384

noncomputable section

namespace Cert.Proof

open Idealize.ShloMosaic Idealize.SL.Sem

/-- The kernel as printed: it runs to the end and leaves its arguments as launched. -/
theorem frame_k : Cert.frame_Kernel := fun m ρ _ => Cert.Kernel.Hand.frame (F := Bits) m ρ

/-- The idealized kernel likewise: the value run with the three results dropped. -/
theorem frame_ki : Cert.frame_KernelIdeal := fun m ρ _ =>
  (θ_run Cert.KernelIdeal.defs _ _).mono (fun _ h c => (h c).2.2.2) (Cert.KernelIdeal.Hand.run_value m ρ)

/-- The idealized reference: its run read at the fifteen arguments, none of which any operation writes. -/
theorem frame_ri : Cert.frame_ReferenceIdeal := fun m ρ _ =>
  (θ_run Cert.ReferenceIdeal.defs _ _).mono (fun _ h c => ⟨(h c Cert.ReferenceIdeal.main_arg0).trans (Cert.ReferenceIdeal.Hand.W_main_arg0 m c),
    (h c Cert.ReferenceIdeal.main_arg1).trans (Cert.ReferenceIdeal.Hand.W_main_arg1 m c),
    (h c Cert.ReferenceIdeal.main_arg2).trans (Cert.ReferenceIdeal.Hand.W_main_arg2 m c),
    (h c Cert.ReferenceIdeal.main_arg3).trans (Cert.ReferenceIdeal.Hand.W_main_arg3 m c),
    (h c Cert.ReferenceIdeal.main_arg4).trans (Cert.ReferenceIdeal.Hand.W_main_arg4 m c),
    (h c Cert.ReferenceIdeal.main_arg5).trans (Cert.ReferenceIdeal.Hand.W_main_arg5 m c),
    (h c Cert.ReferenceIdeal.main_arg6).trans (Cert.ReferenceIdeal.Hand.W_main_arg6 m c),
    (h c Cert.ReferenceIdeal.main_arg7).trans (Cert.ReferenceIdeal.Hand.W_main_arg7 m c),
    (h c Cert.ReferenceIdeal.main_arg8).trans (Cert.ReferenceIdeal.Hand.W_main_arg8 m c),
    (h c Cert.ReferenceIdeal.main_arg9).trans (Cert.ReferenceIdeal.Hand.W_main_arg9 m c),
    (h c Cert.ReferenceIdeal.main_arg10).trans (Cert.ReferenceIdeal.Hand.W_main_arg10 m c),
    (h c Cert.ReferenceIdeal.main_arg11).trans (Cert.ReferenceIdeal.Hand.W_main_arg11 m c),
    (h c Cert.ReferenceIdeal.main_arg12).trans (Cert.ReferenceIdeal.Hand.W_main_arg12 m c),
    (h c Cert.ReferenceIdeal.main_arg13).trans (Cert.ReferenceIdeal.Hand.W_main_arg13 m c),
    (h c Cert.ReferenceIdeal.main_arg14).trans (Cert.ReferenceIdeal.Hand.W_main_arg14 m c)⟩)
    (Cert.ReferenceIdeal.Hand.run_all (F := Ideal) m ρ)

theorem preserves : Cert.preserves_Kernel_KernelIdeal := trivial

/-- Equal results: each of the kernel's three result arrays ends at the scores of c_k against the table, and so does
    each of the reference's, c_k being one term of the arguments on both sides. -/
theorem algebraic : Cert.algebraic_KernelIdeal_ReferenceIdeal := by
  intro m ρ m' ρ' _ hagree
  refine ⟨fun c => Cert.KernelIdeal.Hand.goal1 m c, fun c => Cert.KernelIdeal.Hand.goal2 m c, fun c => Cert.KernelIdeal.Hand.goal3 m c,
    Cert.KernelIdeal.Hand.run_value m ρ, ?_⟩
  refine (θ_run Cert.ReferenceIdeal.defs _ _).mono (fun _ h c => ?_) (Cert.ReferenceIdeal.Hand.run_all (F := Ideal) m' ρ')
  obtain ⟨e0, e1, e2, e3, e4, e5, e6, e7, e8, e9, e10, e11, e12, e13, e14⟩ := hagree c
  refine ⟨(h c Cert.ReferenceIdeal.main_v107).trans ?_, (h c Cert.ReferenceIdeal.main_v111).trans ?_, (h c Cert.ReferenceIdeal.main_v115).trans ?_,
    (h c Cert.ReferenceIdeal.main_arg0).trans (Cert.ReferenceIdeal.Hand.W_main_arg0 m' c),
    (h c Cert.ReferenceIdeal.main_arg1).trans (Cert.ReferenceIdeal.Hand.W_main_arg1 m' c),
    (h c Cert.ReferenceIdeal.main_arg2).trans (Cert.ReferenceIdeal.Hand.W_main_arg2 m' c),
    (h c Cert.ReferenceIdeal.main_arg3).trans (Cert.ReferenceIdeal.Hand.W_main_arg3 m' c),
    (h c Cert.ReferenceIdeal.main_arg4).trans (Cert.ReferenceIdeal.Hand.W_main_arg4 m' c),
    (h c Cert.ReferenceIdeal.main_arg5).trans (Cert.ReferenceIdeal.Hand.W_main_arg5 m' c),
    (h c Cert.ReferenceIdeal.main_arg6).trans (Cert.ReferenceIdeal.Hand.W_main_arg6 m' c),
    (h c Cert.ReferenceIdeal.main_arg7).trans (Cert.ReferenceIdeal.Hand.W_main_arg7 m' c),
    (h c Cert.ReferenceIdeal.main_arg8).trans (Cert.ReferenceIdeal.Hand.W_main_arg8 m' c),
    (h c Cert.ReferenceIdeal.main_arg9).trans (Cert.ReferenceIdeal.Hand.W_main_arg9 m' c),
    (h c Cert.ReferenceIdeal.main_arg10).trans (Cert.ReferenceIdeal.Hand.W_main_arg10 m' c),
    (h c Cert.ReferenceIdeal.main_arg11).trans (Cert.ReferenceIdeal.Hand.W_main_arg11 m' c),
    (h c Cert.ReferenceIdeal.main_arg12).trans (Cert.ReferenceIdeal.Hand.W_main_arg12 m' c),
    (h c Cert.ReferenceIdeal.main_arg13).trans (Cert.ReferenceIdeal.Hand.W_main_arg13 m' c),
    (h c Cert.ReferenceIdeal.main_arg14).trans (Cert.ReferenceIdeal.Hand.W_main_arg14 m' c)⟩
  · rw [Cert.ReferenceIdeal.Hand.W_res0, Cert.RefSide.ref_score, Cert.Link.link1 m m' c e0 e1 e2 e3 e4 e5 e6 e7 e8 e9 e10 e11 e12, Cert.ReferenceIdeal.Hand.W_main_arg3, e3]
    rfl
  · rw [Cert.ReferenceIdeal.Hand.W_res1, Cert.RefSide.ref_score, Cert.Link.link2 m m' c e0 e1 e2 e3 e4 e5 e6 e7 e8 e9 e10 e11 e13, Cert.ReferenceIdeal.Hand.W_main_arg3, e3]
    rfl
  · rw [Cert.ReferenceIdeal.Hand.W_res2, Cert.RefSide.ref_score, Cert.Link.link3 m m' c e0 e1 e2 e3 e4 e5 e6 e7 e8 e9 e10 e11 e14, Cert.ReferenceIdeal.Hand.W_main_arg3, e3]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
